-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S64x1024 : Shape := ⟨2, ![64, 1024]⟩
abbrev S50257x1024 : Shape := ⟨2, ![50257, 1024]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S64 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S64x1024 .f32) (main_arg3 : FVec F S50257x1024 .f32) (main_arg4 : FVec F S64x2048 .f32) (main_arg5 : FVec F S64 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S64x1024 .f32 := Host.absf main_arg2
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S64x2048 .f32 := Host.absf main_arg4
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S64x1024 : Shape := ⟨2, ![64, 1024]⟩
abbrev S50257x1024 : Shape := ⟨2, ![50257, 1024]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S2048x64 : Shape := ⟨2, ![2048, 64]⟩
abbrev S1x64 : Shape := ⟨2, ![1, 64]⟩
abbrev S1x1 : Shape := ⟨2, ![1, 1]⟩
abbrev S2048x1024 : Shape := ⟨2, ![2048, 1024]⟩
abbrev S1024x3072 : Shape := ⟨2, ![1024, 3072]⟩
abbrev S1x3072 : Shape := ⟨2, ![1, 3072]⟩
abbrev S1x50257 : Shape := ⟨2, ![1, 50257]⟩
abbrev S4096x1024 : Shape := ⟨2, ![4096, 1024]⟩
abbrev S1x4096 : Shape := ⟨2, ![1, 4096]⟩

abbrev nBuf : Space → Nat
  | .hbm => 110
  | .vmem => 7
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S64x1024, .f32⟩
  | .hbm, ⟨3, _⟩ => ⟨S50257x1024, .f32⟩
  | .hbm, ⟨4, _⟩ => ⟨S64x2048, .f32⟩
  | .hbm, ⟨5, _⟩ => ⟨S64, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1024, .f32⟩
  | .hbm, ⟨22, _⟩ => ⟨S1x1024, .f32⟩
  | .hbm, ⟨23, _⟩ => ⟨S1x2048, .f32⟩
  | .hbm, ⟨24, _⟩ => ⟨S2048x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S1x1, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1, .f32⟩
  | .hbm, ⟨39, _⟩ => ⟨S1x1, .f32⟩
  | .hbm, ⟨40, _⟩ => ⟨S1x64, .f32⟩
  | .hbm, ⟨41, _⟩ => ⟨S1x64, .f32⟩
  | .hbm, ⟨42, _⟩ => ⟨S1x1024, .f32⟩
  | .hbm, ⟨43, _⟩ => ⟨S1x2048, .f32⟩
  | .hbm, ⟨44, _⟩ => ⟨S2048x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1024x3072, .f32⟩
  | .hbm, ⟨52, _⟩ => ⟨S1x3072, .f32⟩
  | .hbm, ⟨53, _⟩ => ⟨S1x3072, .f32⟩
  | .hbm, ⟨54, _⟩ => ⟨S1x3072, .f32⟩
  | .hbm, ⟨55, _⟩ => ⟨S1024x3072, .f32⟩
  | .hbm, ⟨56, _⟩ => ⟨S1x3072, .f32⟩
  | .hbm, ⟨57, _⟩ => ⟨S1x3072, .f32⟩
  | .hbm, ⟨58, _⟩ => ⟨S1x3072, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x50257, .f32⟩
  | .hbm, ⟨93, _⟩ => ⟨S1x50257, .f32⟩
  | .hbm, ⟨94, _⟩ => ⟨S_, .f32⟩
  | .hbm, ⟨95, _⟩ => ⟨S1, .f32⟩
  | .hbm, ⟨96, _⟩ => ⟨S_, .f32⟩
  | .hbm, ⟨97, _⟩ => ⟨S1, .f32⟩
  | .hbm, ⟨98, _⟩ => ⟨S1, .f32⟩
  | .hbm, ⟨99, _⟩ => ⟨S1x1, .f32⟩
  | .hbm, ⟨100, _⟩ => ⟨S1x50257, .f32⟩
  | .hbm, ⟨101, _⟩ => ⟨S1x50257, .f32⟩
  | .hbm, ⟨102, _⟩ => ⟨S1x50257, .f32⟩
  | .hbm, ⟨103, _⟩ => ⟨S_, .f32⟩
  | .hbm, ⟨104, _⟩ => ⟨S1, .f32⟩
  | .hbm, ⟨105, _⟩ => ⟨S1x1, .f32⟩
  | .hbm, ⟨106, _⟩ => ⟨S1x1, .f32⟩
  | .hbm, ⟨107, _⟩ => ⟨S1x50257, .f32⟩
  | .hbm, ⟨108, _⟩ => ⟨S1x50257, .f32⟩
  | .hbm, ⟨109, _⟩ => ⟨S1x1x1024, .f32⟩
  | .local _ .vmem, ⟨0, _⟩ => ⟨S1x1024, .f32⟩
  | .local _ .vmem, ⟨1, _⟩ => ⟨S4096x1024, .f32⟩
  | .local _ .vmem, ⟨2, _⟩ => ⟨S4096x1024, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call1_cst : Ref sig .tc := ⟨.hbm, 94, rfl⟩
abbrev main_call1_v0 : Ref sig .tc := ⟨.hbm, 95, rfl⟩
abbrev main_call1_cst_0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_cst_1 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_v67 : Ref sig .tc := ⟨.hbm, 108, rfl⟩
abbrev main_v68 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1_S_ : S1.ShapeCasts S_
  sliceFits_S50257x1024_S1x1024 : S50257x1024.Slices (fun _ => 0) S1x1024
  h_S_ : 0 < S_.numel
  shapeCasts_S1x1x1024_S1x1024 : S1x1x1024.ShapeCasts S1x1024
  concatenates_S1x1024_S1x1024_S1x2048_d1 : Shape.Concatenates [S1x1024, S1x1024] S1x2048 1
  transposes_S64x2048_S2048x64_1_0 : S64x2048.Transposes [1, 0] S2048x64
  bcast_S64_S1x64_1 : S64.BroadcastsInDim S1x64 (![1] : Fin 1 → Fin S1x64.rank)
  reducesTo_S1x64_S1_d1 : S1x64.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x64_0_1 : S1x1.BroadcastsInDim S1x64 (![0, 1] : Fin 2 → Fin S1x64.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S4096x1024_S4096x1024_0_0 : ∀ a, (![0, 0] : Fin 2 → Nat) a + S4096x1024.size a ≤ S4096x1024.size a
  h_S4096x1024 : 0 < S4096x1024.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S1x4096_d1_w32 : S1x4096.Iotas .tc 32 [1]
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S2048x64_S1x64_1_0_0_1_n_n_wf : DotDims.WF S1x2048 S2048x64 S1x64 [1] [0] [0] [1] [] []
  dot_S1x64_S64x1024_S1x1024_1_0_0_1_n_n_wf : DotDims.WF S1x64 S64x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S4096x1024_S1x4096_1_1_0_0_n_n_wf : DotDims.WF S1x1024 S4096x1024 S1x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x1024.size a < S50257x1024.size a
  hwx0_1 : ∀ i : grid0.Coords, EltTy.bits .f32 = 32 ∨ (Rect.unit (s := S50257x1024) (fun a => cc0_transform_1 i a * S4096x1024.size a) (fun a => (Pipeline.Clip.of (cc0_transform_1 i a) (S4096x1024.size a) (S50257x1024.size a)).extent (S4096x1024.size a)) fun a => Pipeline.Clip.inb (Pipeline.Clip.ok_of (hstart0_1 i a))).WholeWords (EltTy.packing .f32)
  hwxs0_1 : ∀ i : grid0.Coords, EltTy.bits .f32 = 32 ∨ (Rect.unit (s := S4096x1024) (fun _ => 0) (fun a => (Pipeline.Clip.of (cc0_transform_1 i a) (S4096x1024.size a) (S50257x1024.size a)).extent (S4096x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x4096.size a < S1x50257.size a
  hwx0_2 : ∀ i : grid0.Coords, EltTy.bits .f32 = 32 ∨ (Rect.unit (s := S1x50257) (fun a => cc0_transform_2 i a * S1x4096.size a) (fun a => (Pipeline.Clip.of (cc0_transform_2 i a) (S1x4096.size a) (S1x50257.size a)).extent (S1x4096.size a)) fun a => Pipeline.Clip.inb (Pipeline.Clip.ok_of (hstart0_2 i a))).WholeWords (EltTy.packing .f32)
  hwxs0_2 : ∀ i : grid0.Coords, EltTy.bits .f32 = 32 ∨ (Rect.unit (s := S1x4096) (fun _ => 0) (fun a => (Pipeline.Clip.of (cc0_transform_2 i a) (S1x4096.size a) (S1x50257.size a)).extent (S1x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x4096.size a < S1x50257.size a
  hwx0_3 : ∀ i : grid0.Coords, EltTy.bits .f32 = 32 ∨ (Rect.unit (s := S1x50257) (fun a => cc0_transform_3 i a * S1x4096.size a) (fun a => (Pipeline.Clip.of (cc0_transform_3 i a) (S1x4096.size a) (S1x50257.size a)).extent (S1x4096.size a)) fun a => Pipeline.Clip.inb (Pipeline.Clip.ok_of (hstart0_3 i a))).WholeWords (EltTy.packing .f32)
  hwxs0_3 : ∀ i : grid0.Coords, EltTy.bits .f32 = 32 ∨ (Rect.unit (s := S1x4096) (fun _ => 0) (fun a => (Pipeline.Clip.of (cc0_transform_3 i a) (S1x4096.size a) (S1x50257.size a)).extent (S1x4096.size a)) fun a => (Nat.zero_add _).trans_le (Pipeline.Clip.extent_le (Pipeline.Clip.ok_of (hstart0_3 i a)))).WholeWords (EltTy.packing .f32)

variable [Facts₀]

def dot_S1x2048_S2048x64_S1x64_1_0_0_1_n_n : DotDims S1x2048 S2048x64 S1x64 where
  lhsContracting := [1]
  rhsContracting := [0]
  lhsNonContracting := [0]
  rhsNonContracting := [1]
  lhsBatch := []
  rhsBatch := []
  wf := dot_S1x2048_S2048x64_S1x64_1_0_0_1_n_n_wf
def dot_S1x64_S64x1024_S1x1024_1_0_0_1_n_n : DotDims S1x64 S64x1024 S1x1024 where
  lhsContracting := [1]
  rhsContracting := [0]
  lhsNonContracting := [0]
  rhsNonContracting := [1]
  lhsBatch := []
  rhsBatch := []
  wf := dot_S1x64_S64x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S4096x1024_S1x4096_1_1_0_0_n_n : DotDims S1x1024 S4096x1024 S1x4096 where
  lhsContracting := [1]
  rhsContracting := [1]
  lhsNonContracting := [0]
  rhsNonContracting := [0]
  lhsBatch := []
  rhsBatch := []
  wf := dot_S1x1024_S4096x1024_S1x4096_1_1_0_0_n_n_wf

abbrev win0_0 : Pipeline.Window sig grid0 :=
  Pipeline.Window.ofSpec (Memref.whole main_v64) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg12) S4096x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v65) S1x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v66) S1x4096.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S64x1024 : Shape := ⟨2, ![64, 1024]⟩
abbrev S50257x1024 : Shape := ⟨2, ![50257, 1024]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S2048x64 : Shape := ⟨2, ![2048, 64]⟩
abbrev S1x64 : Shape := ⟨2, ![1, 64]⟩
abbrev S1x1 : Shape := ⟨2, ![1, 1]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 121
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S64x1024, .f32⟩
  | .hbm, ⟨3, _⟩ => ⟨S50257x1024, .f32⟩
  | .hbm, ⟨4, _⟩ => ⟨S64x2048, .f32⟩
  | .hbm, ⟨5, _⟩ => ⟨S64, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x2048, .f32⟩
  | .hbm, ⟨33, _⟩ => ⟨S2048x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x64, .f32⟩
  | .hbm, ⟨50, _⟩ => ⟨S1x64, .f32⟩
  | .hbm, ⟨51, _⟩ => ⟨S1x1024, .f32⟩
  | .hbm, ⟨52, _⟩ => ⟨S1x2048, .f32⟩
  | .hbm, ⟨53, _⟩ => ⟨S2048x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1024x3072, .f32⟩
  | .hbm, ⟨65, _⟩ => ⟨S1x3072, .f32⟩
  | .hbm, ⟨66, _⟩ => ⟨S1x3072, .f32⟩
  | .hbm, ⟨67, _⟩ => ⟨S1x3072, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1024x50257, .f32⟩
  | .hbm, ⟨102, _⟩ => ⟨S1x50257, .f32⟩
  | .hbm, ⟨103, _⟩ => ⟨S1x50257, .f32⟩
  | .hbm, ⟨104, _⟩ => ⟨S1x50257, .f32⟩
  | .hbm, ⟨105, _⟩ => ⟨S_, .f32⟩
  | .hbm, ⟨106, _⟩ => ⟨S1, .f32⟩
  | .hbm, ⟨107, _⟩ => ⟨S_, .f32⟩
  | .hbm, ⟨108, _⟩ => ⟨S1, .f32⟩
  | .hbm, ⟨109, _⟩ => ⟨S1, .f32⟩
  | .hbm, ⟨110, _⟩ => ⟨S1x1, .f32⟩
  | .hbm, ⟨111, _⟩ => ⟨S1x50257, .f32⟩
  | .hbm, ⟨112, _⟩ => ⟨S1x50257, .f32⟩
  | .hbm, ⟨113, _⟩ => ⟨S1x50257, .f32⟩
  | .hbm, ⟨114, _⟩ => ⟨S_, .f32⟩
  | .hbm, ⟨115, _⟩ => ⟨S1, .f32⟩
  | .hbm, ⟨116, _⟩ => ⟨S1x1, .f32⟩
  | .hbm, ⟨117, _⟩ => ⟨S1x1, .f32⟩
  | .hbm, ⟨118, _⟩ => ⟨S1x50257, .f32⟩
  | .hbm, ⟨119, _⟩ => ⟨S1x50257, .f32⟩
  | .hbm, ⟨120, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_call1_cst_0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_cst_1 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_v74 : Ref sig .tc := ⟨.hbm, 119, rfl⟩
abbrev main_v75 : Ref sig .tc := ⟨.hbm, 120, rfl⟩

abbrev nD : Nat := 1
abbrev τ : Topo := Topo.v7x

variable {F : FTy → Type} [FloatOps F]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  shapeCasts_S1x1x1024_S1x1024 : S1x1x1024.ShapeCasts S1x1024
  concatenates_S1x1024_S1x1024_S1x2048_d1 : Shape.Concatenates [S1x1024, S1x1024] S1x2048 1
  transposes_S64x2048_S2048x64_1_0 : S64x2048.Transposes [1, 0] S2048x64
  bcast_S64_S1x64_1 : S64.BroadcastsInDim S1x64 (![1] : Fin 1 → Fin S1x64.rank)
  reducesTo_S1x64_S1_d1 : S1x64.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x64_0_1 : S1x1.BroadcastsInDim S1x64 (![0, 1] : Fin 2 → Fin S1x64.rank)
  transposes_S1024x2048_S2048x1024_1_0 : S1024x2048.Transposes [1, 0] S2048x1024
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S2048x64_S1x64_1_0_0_1_n_n_wf : DotDims.WF S1x2048 S2048x64 S1x64 [1] [0] [0] [1] [] []
  dot_S1x64_S64x1024_S1x1024_1_0_0_1_n_n_wf : DotDims.WF S1x64 S64x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def dot_S1x2048_S2048x64_S1x64_1_0_0_1_n_n : DotDims S1x2048 S2048x64 S1x64 where
  lhsContracting := [1]
  rhsContracting := [0]
  lhsNonContracting := [0]
  rhsNonContracting := [1]
  lhsBatch := []
  rhsBatch := []
  wf := dot_S1x2048_S2048x64_S1x64_1_0_0_1_n_n_wf
def dot_S1x64_S64x1024_S1x1024_1_0_0_1_n_n : DotDims S1x64 S64x1024 S1x1024 where
  lhsContracting := [1]
  rhsContracting := [0]
  lhsNonContracting := [0]
  rhsNonContracting := [1]
  lhsBatch := []
  rhsBatch := []
  wf := dot_S1x64_S64x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KernelAround.lean ====
/-
  The host lines of @main around its one region, for the program `Kernel` read at any float instance: the contents
  of every buffer when the region is entered (the fold of the 79 host operations before it: the embedding row, the
  attention weights, the combined input, the GRU cell), @main reduced to "the region, then the 16 later host
  operations" (the log-softmax of the logits and the new hidden state with an axis added), the side conditions of the
  later lines (they touch unscoped buffers only, allocate nothing, write none of the region's four arrays), and the
  fourteen argument arrays unchanged by the earlier lines.
-/
import proofs.«141799_j52441550684336_2_alg».proof.Proof.Gen.Kernel.Launch
import proofs.«141799_j52441550684336_2_alg».proof.Proof.Gen.Kernel.Skeleton
import proofs.«141799_j52441550684336_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffers when the region is entered: the launch contents after the three stretches of host
    operations that precede it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the earlier host lines, the region, the later host lines: it reduces to the region continued by the
    later lines, the buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch unscoped TensorCore buffers only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And each writes only its own result buffer, which is none of the region's four arrays. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

/-! ## The argument arrays are as launched when the region is entered -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

/-! ## The windows' blocks -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Around

end
-- ==== Proof.KernelBody.lean ====
/-
  The out-projection kernel's body of `Kernel` on whole staging buffers, at any float instance: it loads the
  hidden row [1, 1024], the weight block [4096, 1024] and the bias block [1, 4096], and stores into the output block
  [1, 4096] the row of logits (the matrix product into a zero accumulator plus the bias, kept where the global column
  is inside the vocabulary and zero elsewhere). The three inputs' buffers are left as found; the output's buffer ends
  at that payload of what the three inputs' buffers held, whatever it held before (the body loads it once, unused).
-/
import proofs.«141799_j52441550684336_2_alg».proof.Proof.KernelAround
import Idealize.ShloMosaic.Lib.Pipeline.Value

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's accesses: each whole staging buffer, through the rectangle at offsets zero of the buffer's own sizes. -/
abbrev rH : Rect S1x1024 := Rect.unit (s := S1x1024) ![0, 0] S1x1024.size inb_S1x1024_S1x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

theorem zeros2 : (![0, 0] : Fin 2 → Nat) = fun _ => 0 := funext fun a => by fin_cases a <;> rfl

/-- What the body leaves in the output block's buffer, from what the three input buffers hold: its one store, of the
    payload of its three loads. -/
def outBlock (i : grid0.Coords) (x0 : Vec F S1x1024 .f32) (x1 : Vec F S4096x1024 .f32) (x2 : Vec F S1x4096 .f32) : Vec F S1x4096 .f32 :=
  View.canon [⟨rB, k0_pay1 i (View.ld x0 rH) (View.ld x1 rW) (View.ld x2 rB)⟩]

/-- The accesses being the whole buffers, that is the payload of the buffers' contents. -/
theorem outBlock_eq (i : grid0.Coords) (x0 : Vec F S1x1024 .f32) (x1 : Vec F S4096x1024 .f32) (x2 : Vec F S1x4096 .f32) :
    outBlock i x0 x1 x2 = k0_pay1 i x0 x1 x2 := by
  unfold outBlock
  rw [View.canon_unit_zero zeros2]
  simp only [View.ld_unit_zero (S := S1x1024) zeros2, View.ld_unit_zero (S := S4096x1024) zeros2, View.ld_unit_zero (S := S1x4096) zeros2]

/-- The one store covers the output block. -/
theorem cover_out (p0 : Vec F S1x4096 .f32) (y : S1x4096.Idx) :
    ∃ pc ∈ ([⟨rB, p0⟩] : List (View.Piece (Elt F) S1x4096 .f32)), y ∈ pc.1.set :=
  ⟨_, List.mem_singleton_self _, View.mem_set_unit_zero zeros2 inb_S1x4096_S1x4096_0_0 y⟩

set_option maxHeartbeats 1000000 in
/-- The body's triple: on whole staging memrefs, the inputs' at read contents `x0`, `x1`, `x2` and the output's at
    anything, the body runs to the continuation holding the inputs' as they were and the output's at `outBlock`. -/
theorem sound_kernel (c : Dev nD) (E : Set ℕ) (i : grid0.Coords)
    (arg1 : Memref sig .tc .vmem S1x1024 .f32) (harg1 : arg1.IsWhole) (arg2 : Memref sig .tc .vmem S4096x1024 .f32) (harg2 : arg2.IsWhole)
    (arg3 : Memref sig .tc .vmem S1x4096 .f32) (harg3 : arg3.IsWhole) (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBlock i x0 x1 x2)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Around

end
-- ==== Proof.KernelFrame.lean ====
/-
  The frame of `Kernel` — the program as printed, read at the word level (or at any float instance): every weakly
  fair execution of @main terminates without a fault and the fourteen argument arrays end unchanged. Nothing is said of
  what the body computes: the weight block's, the bias block's and the output block's buffers are handed to the body at
  contents nothing names and taken back so (the body only has to run); the hidden row's buffer, fetched once, is left
  as found. The weights, a staged input, are never written; every other argument array is a buffer no window stages and
  no host line writes.
-/
import proofs.«141799_j52441550684336_2_alg».proof.Proof.KernelBody
import Idealize.ShloMosaic.Lib.ValueIdx

set_option maxRecDepth 16384

noncomputable section

namespace Cert.Kernel.Around

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The windows whose buffers' contents this proof does not name: the weight block, the bias block, the output block. -/
def forgets0 : Fin 4 → Bool := fun w => w.val != 0

/-- The proof data of the one pipeline on core `c`: the arrays as the region finds them; after the body the hidden
    row's buffer at the row, the other three unnamed; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

/-- The hidden row's buffer holds the row at every point: fetched at the first, left in place by the body after. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X)
    ∗ (∃ X, owns (c : Thread nD τ) (st0_2 t) fullShare X)
    ∗ (∃ X, owns (c : Thread nD τ) (st0_3 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X)
    ∗ (∃ X, owns (c : Thread nD τ) (st0_2 t) fullShare X)
    ∗ (∃ X, owns (c : Thread nD τ) (st0_3 t) fullShare X))

/-- The body at any point: whatever the buffers hold, the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  iintro ⟨HΦ, Ho, ⟨%d0, H0⟩, ⟨%X1, H1⟩, ⟨%X2, H2⟩, ⟨%X3, H3⟩⟩
  iapply (sound_kernel c Set.univ (grid0.coords t) _ _ _ _ _ _ _ _ (iblk m c 0 t) X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists _; iexact H1
  isplitl [H2]; · iexists _; iexact H2
  iexists _; iexact H3

/-- The library's body obligation, at every point. -/
theorem body_obligation (c : Dev nD) : BodyObligation (dats (F := F) m 0 c) (defs₀ (F := F)) Variants.none () Set.univ forgets0 := fun t => by
  rw [bigSep_W0, bigSep_W0]
  exact sound_body m c t

/-- The buffers the later host lines write: their sixteen results. -/
def tailWrites : Finset (Ref sig .tc) := {main_call1_cst, main_call1_v0, main_call1_cst_0, main_call1_v1, main_call1_v2, main_call1_v3, main_call1_v4, main_call1_v5, main_call1_v6, main_call1_cst_1, main_call1_v7, main_call1_v8, main_call1_v9, main_call1_v10, main_v67, main_v68}

theorem sfx_writes : ∀ ops ∈ ([hostOps1, hostOps1_1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] at hb
      obtain rfl := Proc.devRef_injective _ hb
      decide
  · simp only [hostOps1_1, List.mem_cons, List.mem_nil_iff, or_false] at hop
    rcases hop with rfl
    intro b hb
    simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] at hb
    obtain rfl := Proc.devRef_injective _ hb
    decide

set_option backward.isDefEq.respectTransparency.types false in
/-- Every weakly fair execution of @main terminates; every input array of the pipeline ends as the region found it, and
    every unscoped buffer the later host lines do not write ends at its region-entry contents. -/
theorem run_main : θ_run defs (onTc (τ := τ) (main (F := F))) (s₀ m ρ)
    (Pipeline.RDat.FramePostR (cfgs 0) (fun c => (dats m 0 c).toRForget forgets0) tailWrites (V m)) :=
  Pipeline.RDat.θ_run_frame_around_T cfgs (0 : Fin 1) launch0 defs₀ Variants.none (fun c => (dats m 0 c).toRForget forgets0) tailWrites m ρ main
    (hbody := fun c => (body_obligation m c).toRForget) (hshare := fun c => ((dats m 0 c).toRForget forgets0).share_full fun _ => rfl)
    (howed := fun _ _ => rfl) (V₀ := V0 m) (opss := [hostOps1, hostOps1_1]) (hsub := sfx_sub) (hfresh := sfx_fresh) (hkeep := sfx_keeps)
    (hT := sfx_writes) (hmain := hmain m Variants.none) (hA := A_eq m) (hΦ := fun _ _ => rfl)

/-- THE FRAME from the run. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat tailWrites (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      (Eq.mp (congrFun ((rdat c).ArrAt_in 1 rfl _) _) ((h c).1 1)).trans ((hA c 1).trans (V_main_arg12 m c)),
      ((h c).2 main_arg13 (Finset.mem_sdiff.mpr ⟨Pipeline.mem_restRefs_of main_arg13 (by decide) (by decide), by decide⟩)).trans (V_main_arg13 m c)⟩) h

/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (fun c => (dats m 0 c).toRForget forgets0) (A_eq m) (run_main m ρ)

end Cert.Kernel.Around

end
-- ==== Proof.IdealAround.lean ====
/-
  The host lines of @main around its one region, for the program `KernelIdeal` read at any float instance: the contents
  of every buffer when the region is entered (the fold of the 79 host operations before it: the embedding row, the
  attention weights, the combined input, the GRU cell), @main reduced to "the region, then the 16 later host
  operations" (the log-softmax of the logits and the new hidden state with an axis added), the side conditions of the
  later lines (they touch unscoped buffers only, allocate nothing, write none of the region's four arrays), and the
  fourteen argument arrays unchanged by the earlier lines.
-/
import proofs.«141799_j52441550684336_2_alg».proof.Proof.Gen.KernelIdeal.Launch
import proofs.«141799_j52441550684336_2_alg».proof.Proof.Gen.KernelIdeal.Skeleton
import proofs.«141799_j52441550684336_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffers when the region is entered: the launch contents after the three stretches of host
    operations that precede it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the earlier host lines, the region, the later host lines: it reduces to the region continued by the
    later lines, the buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch unscoped TensorCore buffers only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And each writes only its own result buffer, which is none of the region's four arrays. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

/-! ## The argument arrays are as launched when the region is entered -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

/-! ## The windows' blocks -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Around

end
-- ==== Proof.IdealBody.lean ====
/-
  The out-projection kernel's body of `KernelIdeal` on whole staging buffers, at any float instance: it loads the
  hidden row [1, 1024], the weight block [4096, 1024] and the bias block [1, 4096], and stores into the output block
  [1, 4096] the row of logits (the matrix product into a zero accumulator plus the bias, kept where the global column
  is inside the vocabulary and zero elsewhere). The three inputs' buffers are left as found; the output's buffer ends
  at that payload of what the three inputs' buffers held, whatever it held before (the body loads it once, unused).
-/
import proofs.«141799_j52441550684336_2_alg».proof.Proof.IdealAround
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's accesses: each whole staging buffer, through the rectangle at offsets zero of the buffer's own sizes. -/
abbrev rH : Rect S1x1024 := Rect.unit (s := S1x1024) ![0, 0] S1x1024.size inb_S1x1024_S1x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

theorem zeros2 : (![0, 0] : Fin 2 → Nat) = fun _ => 0 := funext fun a => by fin_cases a <;> rfl

/-- What the body leaves in the output block's buffer, from what the three input buffers hold: its one store, of the
    payload of its three loads. -/
def outBlock (i : grid0.Coords) (x0 : Vec F S1x1024 .f32) (x1 : Vec F S4096x1024 .f32) (x2 : Vec F S1x4096 .f32) : Vec F S1x4096 .f32 :=
  View.canon [⟨rB, k0_pay1 i (View.ld x0 rH) (View.ld x1 rW) (View.ld x2 rB)⟩]

/-- The accesses being the whole buffers, that is the payload of the buffers' contents. -/
theorem outBlock_eq (i : grid0.Coords) (x0 : Vec F S1x1024 .f32) (x1 : Vec F S4096x1024 .f32) (x2 : Vec F S1x4096 .f32) :
    outBlock i x0 x1 x2 = k0_pay1 i x0 x1 x2 := by
  unfold outBlock
  rw [View.canon_unit_zero zeros2]
  simp only [View.ld_unit_zero (S := S1x1024) zeros2, View.ld_unit_zero (S := S4096x1024) zeros2, View.ld_unit_zero (S := S1x4096) zeros2]

/-- The one store covers the output block. -/
theorem cover_out (p0 : Vec F S1x4096 .f32) (y : S1x4096.Idx) :
    ∃ pc ∈ ([⟨rB, p0⟩] : List (View.Piece (Elt F) S1x4096 .f32)), y ∈ pc.1.set :=
  ⟨_, List.mem_singleton_self _, View.mem_set_unit_zero zeros2 inb_S1x4096_S1x4096_0_0 y⟩

set_option maxHeartbeats 1000000 in
/-- The body's triple: on whole staging memrefs, the inputs' at read contents `x0`, `x1`, `x2` and the output's at
    anything, the body runs to the continuation holding the inputs' as they were and the output's at `outBlock`. -/
theorem sound_kernel (c : Dev nD) (E : Set ℕ) (i : grid0.Coords)
    (arg1 : Memref sig .tc .vmem S1x1024 .f32) (harg1 : arg1.IsWhole) (arg2 : Memref sig .tc .vmem S4096x1024 .f32) (harg2 : arg2.IsWhole)
    (arg3 : Memref sig .tc .vmem S1x4096 .f32) (harg3 : arg3.IsWhole) (arg4 : Memref sig .tc .vmem S1x4096 .f32) (harg4 : arg4.IsWhole)
    (x0 : Vec F S1x1024 .f32) (x1 : Vec F S4096x1024 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBlock i x0 x1 x2)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Around

end
-- ==== Proof.LogitsSpec.lean ====
/-
  The logits of the output projection as one function of the hidden row, the weight matrix and the bias, index by
  index, over the extended reals: column `v` of the [1, 50257] row is the sum over the 1024 hidden coordinates of
  the hidden row times row `v` of the weights, plus the bias at `v`. Both programs compute this row: the kernel block
  by block (4096 columns at a time, the last block cut at the vocabulary's end), the reference by one product with the
  transposed weights.
-/
import Idealize.ShloMosaic.PureOps.Ideal
import Idealize.ShloMosaic.PureOps.Ideal.Laws
import Idealize.ShloMosaic.Lib.ValueIdx

noncomputable section

open scoped BigOperators

namespace Cert.OutProj

open Idealize.ShloMosaic Idealize.ShloMosaic.ValueIdx

/-- The logits row: `h · Wᵀ + b` at column `j 1`. -/
def logits (h : (⟨2, ![1, 1024]⟩ : Shape).Idx → EReal) (W : (⟨2, ![50257, 1024]⟩ : Shape).Idx → EReal)
    (b : (⟨1, ![50257]⟩ : Shape).Idx → EReal) : (⟨2, ![1, 50257]⟩ : Shape).Idx → EReal :=
  fun j => (∑ k : Fin 1024, h (ix2 (0 : Fin 1) k) * W (ix2 (j 1) k)) + b (ix1 (j 1))

theorem logits_apply (h : (⟨2, ![1, 1024]⟩ : Shape).Idx → EReal) (W : (⟨2, ![50257, 1024]⟩ : Shape).Idx → EReal)
    (b : (⟨1, ![50257]⟩ : Shape).Idx → EReal) (j : (⟨2, ![1, 50257]⟩ : Shape).Idx) :
    logits h W b j = (∑ k : Fin 1024, h (ix2 (0 : Fin 1) k) * W (ix2 (j 1) k)) + b (ix1 (j 1)) := rfl

end Cert.OutProj

end
-- ==== Proof.IdealData.lean ====
/-
  The proof data of the idealized kernel's one pipeline, over the extended reals. The region's arrays are the hidden
  row (one block, fetched once), the weights (thirteen blocks of 4096 rows, the last cut at row 50257), the bias row and
  the logits row (thirteen blocks of 4096 columns each, the last cut at column 50257). After the body at a point the
  three input buffers hold their blocks and the output buffer holds the block of ONE row of logits — each stated on the
  part of the block inside its array, which is all a cut transfer moves; past the array's end the filler is the zero
  word, which nothing reads.
-/
import proofs.«141799_j52441550684336_2_alg».proof.Proof.IdealBody
import proofs.«141799_j52441550684336_2_alg».proof.Proof.LogitsSpec
import Idealize.ShloMosaic.Lib.ValueIdx
import Idealize.ShloMosaic.Lib.Pipeline.Value
import Idealize.ShloMosaic.PureOps.Ideal.Laws

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

local notation "𝕄" => MT nD τ sig Unit (Elt Ideal) ℕ (UR sig nD τ) ℕ

/-- The logits row, from the arrays as the region finds them: the hidden row against every row of the weights, plus
    the bias (held as a [1, 50257] row). -/
def logitsK (c : Dev nD) : Buf (Elt Ideal) ((c : Thread nD τ).loc main_v66) :=
  Cert.OutProj.logits (V m c main_v64) (V m c main_arg12) (fun q => (V m c main_v65) (ix2 (0 : Fin 1) (q 0)))

/-- The four windows' blocks at point `t`, their parts inside the arrays: the hidden row, the weight rows, the bias
    columns, and the same columns of the logits row. -/
def blkH (c : Dev nD) (t : Fin cfg0.N) : (win0_0.xblock (grid0.coords t)).Idx → Elt Ideal .f32 :=
  (win0_0.blk t).view.read (Elt Ideal) (V m c main_v64)
def blkW (c : Dev nD) (t : Fin cfg0.N) : (win0_1.xblock (grid0.coords t)).Idx → Elt Ideal .f32 :=
  (win0_1.blk t).view.read (Elt Ideal) (V m c main_arg12)
def blkB (c : Dev nD) (t : Fin cfg0.N) : (win0_2.xblock (grid0.coords t)).Idx → Elt Ideal .f32 :=
  (win0_2.blk t).view.read (Elt Ideal) (V m c main_v65)
def blkL (c : Dev nD) (t : Fin cfg0.N) : (win0_3.xblock (grid0.coords t)).Idx → Elt Ideal .f32 :=
  (win0_3.blk t).view.read (Elt Ideal) (logitsK m c)

/-- The filler past an array's end: the zero word. -/
abbrev zeroW {S : Shape} : S.Idx → Elt Ideal .f32 := fun _ => (show Elt Ideal .f32 from Scalar.ofBits (F := Ideal) .f32 0#32)

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => blkH m c t
    | ⟨1, _⟩ => win0_1.fill (grid0.coords t) zeroW (blkW m c t)
    | ⟨2, _⟩ => win0_2.fill (grid0.coords t) zeroW (blkB m c t)
    | ⟨3, _⟩ => win0_3.fill (grid0.coords t) zeroW (blkL m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blkH m c t := by dsimp only [dats]
theorem after0_1 (c : Dev nD) (t : Fin cfg0.N) :
    (dats m 0 c).after 1 t = win0_1.fill (grid0.coords t) zeroW (blkW m c t) := by dsimp only [dats]
theorem after0_2 (c : Dev nD) (t : Fin cfg0.N) :
    (dats m 0 c).after 2 t = win0_2.fill (grid0.coords t) zeroW (blkB m c t) := by dsimp only [dats]
theorem after0_3 (c : Dev nD) (t : Fin cfg0.N) :
    (dats m 0 c).after 3 t = win0_3.fill (grid0.coords t) zeroW (blkL m c t) := by dsimp only [dats]

/-- The hidden row's buffer holds the row at every point: fetched at the first, left in place by the body after. -/
theorem before0_0 (c : Dev nD) (t : Fin cfg0.N) (d) : (dats m 0 c).before 0 t d = blkH m c t :=
  ((dats m 0 c).before_in_eq_fetched 0 rfl (fun _ => rfl) (fun _ _ _ => rfl)
    (fun t => by rw [after0_0]; unfold Dat.blockOf blkH; rw [A_eq]; try rfl) t d).trans
    (by unfold Dat.fetched Dat.blockOf blkH; rw [A_eq]; try rfl)
/-- The weight block's and the bias block's buffers are fetched at every point: the block on the part inside the
    array, what the buffer held elsewhere. -/
theorem before0_1 (c : Dev nD) (t : Fin cfg0.N) (d) :
    (dats m 0 c).before 1 t d = win0_1.fill (grid0.coords t) d (blkW m c t) := by
  rw [(dats m 0 c).before_fetched 1 t (fetch0_1 t) d]; unfold Dat.fetched Dat.blockOf blkW; rw [A_eq]; try rfl
theorem before0_2 (c : Dev nD) (t : Fin cfg0.N) (d) :
    (dats m 0 c).before 2 t d = win0_2.fill (grid0.coords t) d (blkB m c t) := by
  rw [(dats m 0 c).before_fetched 2 t (fetch0_2 t) d]; unfold Dat.fetched Dat.blockOf blkB; rw [A_eq]; try rfl
/-- The output block's buffer holds contents nothing names: never fetched, written back at every point. -/
theorem before0_3 (c : Dev nD) (t : Fin cfg0.N) (d) : (dats m 0 c).before 3 t d = d := by
  unfold Dat.before
  rw [if_neg (show ¬((cfg0.win 3).fetch t = true) from by
    have : ∀ t : Fin cfg0.N, (cfg0.win 3).fetch t = false := (by decide +kernel : ∀ t : Fin grid0.N, win0_3.fetch t = false)
    rw [this t]; exact Bool.false_ne_true)]
  split
  · rfl
  · rw [if_pos (flush0_3 _)]

end Cert.KernelIdeal.Around

end
-- ==== Proof.IdealPay.lean ====
/-
  The body's payload of the idealized kernel read at one column, over the extended reals: at a column whose global
  position (the block's first column, 4096 times the grid coordinate, plus the column inside the block) lies inside the
  vocabulary, the stored value is the sum over the 1024 hidden coordinates of the hidden row times that row of the
  weight block, plus the bias block at the column — the mask keeps it, and the zero accumulator adds nothing.
-/
import proofs.«141799_j52441550684336_2_alg».proof.Proof.IdealAround
import Idealize.ShloMosaic.Lib.ValueIdx
import Idealize.ShloMosaic.Lib.Pipeline.Value
import Idealize.ShloMosaic.PureOps.Ideal.Laws

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The matrix product of the payload at column `q`: the hidden row against row `q` of the weight block. -/
theorem lhs_0 (i : S1x4096.Idx) (q : dot_S1x1024_S4096x1024_S1x4096_1_1_0_0_n_n.contr.Idx) : (dot_S1x1024_S4096x1024_S1x4096_1_1_0_0_n_n.lhsIdx i q 0).val = (i 0).val := by
  unfold DotDims.lhsIdx
  rw [dif_neg (show ¬(0 : Fin S1x1024.rank) ∈ dot_S1x1024_S4096x1024_S1x4096_1_1_0_0_n_n.lhsBatch by decide), dif_pos (show (0 : Fin S1x1024.rank) ∈ dot_S1x1024_S4096x1024_S1x4096_1_1_0_0_n_n.lhsNonContracting by decide)]
  rfl
theorem lhs_1 (i : S1x4096.Idx) (q : dot_S1x1024_S4096x1024_S1x4096_1_1_0_0_n_n.contr.Idx) : (dot_S1x1024_S4096x1024_S1x4096_1_1_0_0_n_n.lhsIdx i q 1).val = (q ⟨0, by decide⟩).val :=
  dot_S1x1024_S4096x1024_S1x4096_1_1_0_0_n_n.lhsIdx_val_of_single rfl i q
theorem rhs_0 (i : S1x4096.Idx) (q : dot_S1x1024_S4096x1024_S1x4096_1_1_0_0_n_n.contr.Idx) : (dot_S1x1024_S4096x1024_S1x4096_1_1_0_0_n_n.rhsIdx i q 0).val = (i 1).val := by
  unfold DotDims.rhsIdx
  rw [dif_neg (show ¬(0 : Fin S4096x1024.rank) ∈ dot_S1x1024_S4096x1024_S1x4096_1_1_0_0_n_n.rhsBatch by decide), dif_pos (show (0 : Fin S4096x1024.rank) ∈ dot_S1x1024_S4096x1024_S1x4096_1_1_0_0_n_n.rhsNonContracting by decide)]
  rfl
theorem rhs_1 (i : S1x4096.Idx) (q : dot_S1x1024_S4096x1024_S1x4096_1_1_0_0_n_n.contr.Idx) : (dot_S1x1024_S4096x1024_S1x4096_1_1_0_0_n_n.rhsIdx i q 1).val = (q ⟨0, by decide⟩).val :=
  dot_S1x1024_S4096x1024_S1x4096_1_1_0_0_n_n.rhsIdx_val_of_single rfl i q

theorem matmul_at (x0 : FVec Ideal S1x1024 .f32) (x1 : FVec Ideal S4096x1024 .f32) (q : Fin 4096) :
    matmul (F := Ideal) dot_S1x1024_S4096x1024_S1x4096_1_1_0_0_n_n none x0 x1 (constant S1x4096 .f32 0x00000000#32) (ix2 (0 : Fin 1) q)
      = ∑ k : Fin 1024, x0 (ix2 (0 : Fin 1) k) * x1 (ix2 q k) := by
  simp only [matmul]
  rw [Ideal.matmul_constant_zero_apply, ← Equiv.sum_comp (ValueIdx.contrEquiv1 dot_S1x1024_S4096x1024_S1x4096_1_1_0_0_n_n 1024 rfl rfl).symm]
  refine Finset.sum_congr rfl fun k _ => ?_
  have hk := ValueIdx.contrEquiv1_symm_val dot_S1x1024_S4096x1024_S1x4096_1_1_0_0_n_n 1024 rfl rfl k
  have el : dot_S1x1024_S4096x1024_S1x4096_1_1_0_0_n_n.lhsIdx (ix2 (0 : Fin 1) q) ((ValueIdx.contrEquiv1 dot_S1x1024_S4096x1024_S1x4096_1_1_0_0_n_n 1024 rfl rfl).symm k) = ix2 (0 : Fin 1) k := funext fun a => Fin.ext (by
    match a with
    | ⟨0, _⟩ => exact lhs_0 _ _
    | ⟨1, _⟩ => exact (lhs_1 _ _).trans hk)
  have er : dot_S1x1024_S4096x1024_S1x4096_1_1_0_0_n_n.rhsIdx (ix2 (0 : Fin 1) q) ((ValueIdx.contrEquiv1 dot_S1x1024_S4096x1024_S1x4096_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The mask at column `q` of the block at grid coordinate `i 0`: set when the global column is inside the vocabulary. -/
theorem mask_word (n q : Nat) (hn : n < 13) (hq : q < 4096) (h : n * 4096 + q < 50257) :
    BitVec.ofBool ((BitVec.ofNat 32 n * 4096#32 + BitVec.ofNat 32 q).slt 50257#32) = 1#1 := by
  have e : BitVec.ofNat 32 n * 4096#32 + BitVec.ofNat 32 q = BitVec.ofNat 32 (n * 4096 + q) := by
    apply BitVec.eq_of_toNat_eq
    simp only [BitVec.toNat_add, BitVec.toNat_mul, BitVec.toNat_ofNat]
    omega
  rw [e]
  have hs : (BitVec.ofNat 32 (n * 4096 + q)).slt 50257#32 = true := by
    simp only [BitVec.slt, BitVec.toInt_eq_toNat_cond, BitVec.toNat_ofNat, decide_eq_true_eq]
    have h1 : (n * 4096 + q) % 2 ^ 32 = n * 4096 + q := Nat.mod_eq_of_lt (by omega)
    rw [h1]
    norm_num
    split_ifs <;> omega
  rw [hs]; rfl

/-- The mask at column `q` of the block at grid coordinate `i 0`: set when the global column is inside the vocabulary. -/
theorem mask_at (i : grid0.Coords) (q : Fin 4096) (hq : (i 0).val * 4096 + q.val < 50257) :
    cmpi .slt (addi (broadcast S1x4096 (Scalar.muli (BitVec.ofNat 32 (i 0).val) 4096#32)) (iota .tc S1x4096 32 [1] iota_S1x4096_d1_w32))
      (broadcast S1x4096 50257#32) (ix2 (0 : Fin 1) q) = 1#1 := by
  have hi : (i 0).val < 13 := (i 0).isLt
  have hqq : q.val < 4096 := q.isLt
  show IntOp.cmpi .slt (IntOp.addi (Scalar.muli (BitVec.ofNat 32 (i 0).val) 4096#32) (iota .tc S1x4096 32 [1] iota_S1x4096_d1_w32 (ix2 (0 : Fin 1) q))) 50257#32 = 1#1
  rw [iota_single_apply]
  show IntOp.cmpi .slt (IntOp.addi (Scalar.muli (BitVec.ofNat 32 (i 0).val) 4096#32) (BitVec.ofNat 32 q.val)) 50257#32 = 1#1
  simp only [IntOp.cmpi, IntOp.addi, Scalar.muli, IntOp.muli]
  exact mask_word _ _ hi hqq hq

/-- THE PAYLOAD AT A COLUMN inside the vocabulary. -/
theorem pay_at (i : grid0.Coords) (x0 : Vec Ideal S1x1024 .f32) (x1 : Vec Ideal S4096x1024 .f32) (x2 : Vec Ideal S1x4096 .f32)
    (q : Fin 4096) (hq : (i 0).val * 4096 + q.val < 50257) :
    k0_pay1 (F := Ideal) i x0 x1 x2 (ix2 (0 : Fin 1) q) = (∑ k : Fin 1024, x0 (ix2 (0 : Fin 1) k) * x1 (ix2 q k)) + x2 (ix2 (0 : Fin 1) q) := by
  unfold k0_pay1
  rw [select_apply, mask_at i q hq, select_one, addf_apply, shapeCast_self, shapeCast_self, matmul_at]

end Cert.KernelIdeal.Around

end
-- ==== Proof.IdealOblig.lean ====
/-
  The body obligation of the idealized kernel's pipeline, and the one fact it rests on: on the columns of a block that
  lie inside the vocabulary, what the body stores from the three input buffers — whatever those buffers hold past their
  arrays' ends — is the block of the logits row. A stored column depends on the hidden row, on the SAME row of the
  weight block and on the SAME column of the bias block only, and for a column inside the vocabulary those lie inside
  their arrays.
-/
import proofs.«141799_j52441550684336_2_alg».proof.Proof.IdealData
import proofs.«141799_j52441550684336_2_alg».proof.Proof.IdealPay

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

local notation "𝕄" => MT nD τ sig Unit (Elt Ideal) ℕ (UR sig nD τ) ℕ

/-! ## The grid, decided once: coordinates, block indices, the cuts -/

theorem coords_val : ∀ t : Fin cfg0.N, (grid0.coords t 0).val = t.val :=
  (by decide +kernel : ∀ t : Fin grid0.N, (grid0.coords t 0).val = t.val)

theorem idx_facts : ∀ t : Fin cfg0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val :=
  (by decide +kernel : ∀ t : Fin grid0.N, win0_0.index t 0 = 0 ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val)

theorem xs_facts : ∀ t : Fin cfg0.N, win0_3.xsize (grid0.coords t) 0 = 1 ∧ win0_1.xsize (grid0.coords t) 0 = win0_3.xsize (grid0.coords t) 1
    ∧ win0_2.xsize (grid0.coords t) 1 = win0_3.xsize (grid0.coords t) 1 ∧ win0_1.xsize (grid0.coords t) 1 = 1024
    ∧ win0_2.xsize (grid0.coords t) 0 = 1 ∧ t.val * 4096 + win0_3.xsize (grid0.coords t) 1 ≤ 50257 ∧ win0_3.xsize (grid0.coords t) 1 ≤ 4096 :=
  (by decide +kernel : ∀ t : Fin grid0.N, win0_3.xsize (grid0.coords t) 0 = 1 ∧ win0_1.xsize (grid0.coords t) 0 = win0_3.xsize (grid0.coords t) 1
    ∧ win0_2.xsize (grid0.coords t) 1 = win0_3.xsize (grid0.coords t) 1 ∧ win0_1.xsize (grid0.coords t) 1 = 1024
    ∧ win0_2.xsize (grid0.coords t) 0 = 1 ∧ t.val * 4096 + win0_3.xsize (grid0.coords t) 1 ≤ 50257 ∧ win0_3.xsize (grid0.coords t) 1 ≤ 4096)

/-! ## The blocks read at coordinates -/

/-- The hidden row's block is the row. -/
theorem blkH_at (c : Dev nD) (t : Fin cfg0.N) (k : Fin 1024) :
    blkH m c t (ix2 (0 : Fin 1) k) = (V m c main_v64) (ix2 (0 : Fin 1) k) := by
  unfold blkH
  show (V m c main_v64) ((win0_0.blk t).view.emb (ix2 (0 : Fin 1) k)) = _
  refine congrArg _ (funext fun a => Fin.ext ?_)
  have h := idx_facts t
  match a with
  | ⟨0, _⟩ => show win0_0.index t 0 * 1 + 1 * 0 = 0; rw [h.1]
  | ⟨1, _⟩ => show win0_0.index t 1 * 1024 + 1 * k.val = k.val; rw [h.2.1]; omega

/-- The weight block's buffer at a row inside the array: that row of the weights, whatever fills the buffer's tail. -/
theorem fillW_at (c : Dev nD) (t : Fin cfg0.N) (d : S4096x1024.Idx → Elt Ideal .f32) (q : Fin 4096) (k : Fin 1024)
    (hq : q.val < win0_3.xsize (grid0.coords t) 1) (r : Fin 50257) (hr : r.val = t.val * 4096 + q.val) :
    win0_1.fill (grid0.coords t) d (blkW m c t) (ix2 q k) = (V m c main_arg12) (ix2 r k) := by
  have hx := xs_facts t
  have hmv : win0_1.moved (grid0.coords t) (ix2 q k) = true := (win0_1.moved_iff _ _).mpr fun a => by
    match a with
    | ⟨0, _⟩ => show q.val < win0_1.xsize (grid0.coords t) 0; rw [hx.2.1]; exact hq
    | ⟨1, _⟩ => show k.val < win0_1.xsize (grid0.coords t) 1; rw [hx.2.2.2.1]; exact k.isLt
  unfold Window.fill
  rw [dif_pos hmv]
  unfold blkW
  show (V m c main_arg12) ((win0_1.blk t).view.emb _) = _
  refine congrArg _ (funext fun a => Fin.ext ?_)
  have h := idx_facts t
  match a with
  | ⟨0, _⟩ => show win0_1.index t 0 * 4096 + 1 * q.val = r.val; rw [h.2.2.1, hr]; omega
  | ⟨1, _⟩ => show win0_1.index t 1 * 1024 + 1 * k.val = k.val; rw [h.2.2.2.1]; omega

/-- The bias block's buffer at a column inside the array: that column of the bias row. -/
theorem fillB_at (c : Dev nD) (t : Fin cfg0.N) (d : S1x4096.Idx → Elt Ideal .f32) (q : Fin 4096)
    (hq : q.val < win0_3.xsize (grid0.coords t) 1) (r : Fin 50257) (hr : r.val = t.val * 4096 + q.val) :
    win0_2.fill (grid0.coords t) d (blkB m c t) (ix2 (0 : Fin 1) q) = (V m c main_v65) (ix2 (0 : Fin 1) r) := by
  have hx := xs_facts t
  have hmv : win0_2.moved (grid0.coords t) (ix2 (0 : Fin 1) q) = true := (win0_2.moved_iff _ _).mpr fun a => by
    match a with
    | ⟨0, _⟩ => show 0 < win0_2.xsize (grid0.coords t) 0; rw [hx.2.2.2.2.1]; exact Nat.one_pos
    | ⟨1, _⟩ => show q.val < win0_2.xsize (grid0.coords t) 1; rw [hx.2.2.1]; exact hq
  unfold Window.fill
  rw [dif_pos hmv]
  unfold blkB
  show (V m c main_v65) ((win0_2.blk t).view.emb _) = _
  refine congrArg _ (funext fun a => Fin.ext ?_)
  have h := idx_facts t
  match a with
  | ⟨0, _⟩ => show win0_2.index t 0 * 1 + 1 * 0 = 0; rw [h.2.2.2.2.1]
  | ⟨1, _⟩ => show win0_2.index t 1 * 4096 + 1 * q.val = r.val; rw [h.2.2.2.2.2.1, hr]; omega

/-- The logits row's block at a column: the row at the global column. -/
theorem blkL_at (c : Dev nD) (t : Fin cfg0.N) (y : (win0_3.xblock (grid0.coords t)).Idx) (r : Fin 50257)
    (hr : r.val = t.val * 4096 + (y 1).val) : blkL m c t y = logitsK m c (ix2 (0 : Fin 1) r) := by
  unfold blkL
  show logitsK m c ((win0_3.blk t).view.emb y) = _
  refine congrArg _ (funext fun a => Fin.ext ?_)
  have h := idx_facts t
  have hx := xs_facts t
  match a with
  | ⟨0, _⟩ =>
    show win0_3.index t 0 * 1 + 1 * (y 0).val = 0
    have : (y 0).val < win0_3.xsize (grid0.coords t) 0 := (y 0).isLt
    rw [h.2.2.2.2.2.2.1]; omega
  | ⟨1, _⟩ => show win0_3.index t 1 * 4096 + 1 * (y 1).val = r.val; rw [h.2.2.2.2.2.2.2, hr]; omega

/-! ## What the body stores, on the columns inside the vocabulary -/

/-- THE KEY FACT: the moved part of the stored block is the block of the logits row, whatever the input buffers hold
    past their arrays' ends. -/
theorem stored_cut (c : Dev nD) (t : Fin cfg0.N) (d1 : S4096x1024.Idx → Elt Ideal .f32) (d2 : S1x4096.Idx → Elt Ideal .f32) :
    win0_3.cut (grid0.coords t)
        (k0_pay1 (F := Ideal) (grid0.coords t) (blkH m c t) (win0_1.fill (grid0.coords t) d1 (blkW m c t)) (win0_2.fill (grid0.coords t) d2 (blkB m c t)))
      = blkL m c t := by
  funext y
  have hx := xs_facts t
  have hy1 : (y 1).val < win0_3.xsize (grid0.coords t) 1 := (y 1).isLt
  have hy0 : (y 0).val < win0_3.xsize (grid0.coords t) 0 := (y 0).isLt
  have hq4 : (y 1).val < 4096 := lt_of_lt_of_le hy1 hx.2.2.2.2.2.2
  have hr : t.val * 4096 + (y 1).val < 50257 := by omega
  have hJ : win0_3.xinj (grid0.coords t) y = ix2 (0 : Fin 1) (⟨(y 1).val, hq4⟩ : Fin 4096) := funext fun a => Fin.ext (by
    match a with
    | ⟨0, _⟩ => show (y 0).val = 0; omega
    | ⟨1, _⟩ => rfl)
  show k0_pay1 (F := Ideal) (grid0.coords t) (blkH m c t) (win0_1.fill (grid0.coords t) d1 (blkW m c t)) (win0_2.fill (grid0.coords t) d2 (blkB m c t))
      (win0_3.xinj (grid0.coords t) y) = _
  rw [hJ, pay_at _ _ _ _ _ (by rw [coords_val]; exact hr),
    blkL_at m c t y ⟨t.val * 4096 + (y 1).val, hr⟩ rfl,
    fillB_at m c t d2 ⟨(y 1).val, hq4⟩ hy1 ⟨t.val * 4096 + (y 1).val, hr⟩ rfl]
  unfold logitsK
  rw [Cert.OutProj.logits_apply]
  refine congrArg₂ (· + ·) (Finset.sum_congr rfl fun k _ => ?_) rfl
  rw [blkH_at, fillW_at m c t d1 ⟨(y 1).val, hq4⟩ k hy1 ⟨t.val * 4096 + (y 1).val, hr⟩ rfl]

end Cert.KernelIdeal.Around

end
-- ==== Proof.IdealRun.lean ====
/-
  The run of the idealized kernel's @main over the extended reals: the body's obligation at every grid point, the
  launch around the region with the host lines before and after it, and what every final state holds — the region's
  four arrays at what the write-backs leave, every other buffer at the later host lines' result — from which the frame
  (the fourteen argument arrays end unchanged) is read off.
-/
import proofs.«141799_j52441550684336_2_alg».proof.Proof.IdealOblig

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

local notation "𝕄" => MT nD τ sig Unit (Elt Ideal) ℕ (UR sig nD τ) ℕ

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the hidden row's buffer as found, the three cut windows' buffers stated on the part their
    transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t)))))

/-- The body at any point: the input buffers hold their blocks on the parts inside the arrays, the body's triple
    applies, and on the columns inside the vocabulary what it stores is the logits block (`stored_cut`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (blkH m c t) (win0_1.fill (grid0.coords t) d1 (blkW m c t))
    (win0_2.fill (grid0.coords t) d2 (blkB m c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (win0_1.fill (grid0.coords t) zeroW (blkW m c t))))
    rw [Window.cut_fill]
  isplitl [H2]
  · iexists d2
    change _ ⊢ owns (c : Thread nD τ) (st0_2 t) fullShare (win0_2.fill (grid0.coords t) d2 (win0_2.cut (grid0.coords t) (win0_2.fill (grid0.coords t) zeroW (blkB m c t))))
    rw [Window.cut_fill]
  · iexists (outBlock (grid0.coords t) (blkH m c t) (win0_1.fill (grid0.coords t) d1 (blkW m c t)) (win0_2.fill (grid0.coords t) d2 (blkB m c t)))
    change _ ⊢ owns (c : Thread nD τ) (st0_3 t) fullShare (win0_3.fill (grid0.coords t) _ (win0_3.cut (grid0.coords t) (win0_3.fill (grid0.coords t) zeroW (blkL m c t))))
    rw [Window.cut_fill, ← stored_cut m c t d1 d2, ← outBlock_eq, Window.fill_cut]

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, and every final state has the region's arrays at what the
    write-backs leave and every other unscoped buffer at the later host lines' result. -/
theorem run_main : θ_run defs (onTc (τ := τ) (main (F := Ideal))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-! ## The argument arrays after the later host lines -/

variable (dats : (p : Fin 1) → (c : Dev nD) → Dat τ (Elt Ideal) Unit ℕ (UR sig nD τ) ℕ (cfgs p) c)

theorem tail_main_arg0 (c : Dev nD) : Pipeline.afterTail₀ cfgs dats 0 (V0 m) [hostOps1, hostOps1_1] c main_arg0 = V m c main_arg0 := by
  unfold Pipeline.afterTail₀
  rw [StableHlo.after_of_forall_not_mem (b := Proc.devRef .tc main_arg0) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg0 (fun w => by fin_cases w <;> decide)]

theorem tail_main_arg1 (c : Dev nD) : Pipeline.afterTail₀ cfgs dats 0 (V0 m) [hostOps1, hostOps1_1] c main_arg1 = V m c main_arg1 := by
  unfold Pipeline.afterTail₀
  rw [StableHlo.after_of_forall_not_mem (b := Proc.devRef .tc main_arg1) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg1 (fun w => by fin_cases w <;> decide)]

theorem tail_main_arg2 (c : Dev nD) : Pipeline.afterTail₀ cfgs dats 0 (V0 m) [hostOps1, hostOps1_1] c main_arg2 = V m c main_arg2 := by
  unfold Pipeline.afterTail₀
  rw [StableHlo.after_of_forall_not_mem (b := Proc.devRef .tc main_arg2) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg2 (fun w => by fin_cases w <;> decide)]

theorem tail_main_arg3 (c : Dev nD) : Pipeline.afterTail₀ cfgs dats 0 (V0 m) [hostOps1, hostOps1_1] c main_arg3 = V m c main_arg3 := by
  unfold Pipeline.afterTail₀
  rw [StableHlo.after_of_forall_not_mem (b := Proc.devRef .tc main_arg3) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg3 (fun w => by fin_cases w <;> decide)]

theorem tail_main_arg4 (c : Dev nD) : Pipeline.afterTail₀ cfgs dats 0 (V0 m) [hostOps1, hostOps1_1] c main_arg4 = V m c main_arg4 := by
  unfold Pipeline.afterTail₀
  rw [StableHlo.after_of_forall_not_mem (b := Proc.devRef .tc main_arg4) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg4 (fun w => by fin_cases w <;> decide)]

theorem tail_main_arg5 (c : Dev nD) : Pipeline.afterTail₀ cfgs dats 0 (V0 m) [hostOps1, hostOps1_1] c main_arg5 = V m c main_arg5 := by
  unfold Pipeline.afterTail₀
  rw [StableHlo.after_of_forall_not_mem (b := Proc.devRef .tc main_arg5) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg5 (fun w => by fin_cases w <;> decide)]

theorem tail_main_arg6 (c : Dev nD) : Pipeline.afterTail₀ cfgs dats 0 (V0 m) [hostOps1, hostOps1_1] c main_arg6 = V m c main_arg6 := by
  unfold Pipeline.afterTail₀
  rw [StableHlo.after_of_forall_not_mem (b := Proc.devRef .tc main_arg6) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg6 (fun w => by fin_cases w <;> decide)]

theorem tail_main_arg7 (c : Dev nD) : Pipeline.afterTail₀ cfgs dats 0 (V0 m) [hostOps1, hostOps1_1] c main_arg7 = V m c main_arg7 := by
  unfold Pipeline.afterTail₀
  rw [StableHlo.after_of_forall_not_mem (b := Proc.devRef .tc main_arg7) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg7 (fun w => by fin_cases w <;> decide)]

theorem tail_main_arg8 (c : Dev nD) : Pipeline.afterTail₀ cfgs dats 0 (V0 m) [hostOps1, hostOps1_1] c main_arg8 = V m c main_arg8 := by
  unfold Pipeline.afterTail₀
  rw [StableHlo.after_of_forall_not_mem (b := Proc.devRef .tc main_arg8) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg8 (fun w => by fin_cases w <;> decide)]

theorem tail_main_arg9 (c : Dev nD) : Pipeline.afterTail₀ cfgs dats 0 (V0 m) [hostOps1, hostOps1_1] c main_arg9 = V m c main_arg9 := by
  unfold Pipeline.afterTail₀
  rw [StableHlo.after_of_forall_not_mem (b := Proc.devRef .tc main_arg9) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg9 (fun w => by fin_cases w <;> decide)]

theorem tail_main_arg10 (c : Dev nD) : Pipeline.afterTail₀ cfgs dats 0 (V0 m) [hostOps1, hostOps1_1] c main_arg10 = V m c main_arg10 := by
  unfold Pipeline.afterTail₀
  rw [StableHlo.after_of_forall_not_mem (b := Proc.devRef .tc main_arg10) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg10 (fun w => by fin_cases w <;> decide)]

theorem tail_main_arg11 (c : Dev nD) : Pipeline.afterTail₀ cfgs dats 0 (V0 m) [hostOps1, hostOps1_1] c main_arg11 = V m c main_arg11 := by
  unfold Pipeline.afterTail₀
  rw [StableHlo.after_of_forall_not_mem (b := Proc.devRef .tc main_arg11) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg11 (fun w => by fin_cases w <;> decide)]

theorem tail_main_arg13 (c : Dev nD) : Pipeline.afterTail₀ cfgs dats 0 (V0 m) [hostOps1, hostOps1_1] c main_arg13 = V m c main_arg13 := by
  unfold Pipeline.afterTail₀
  rw [StableHlo.after_of_forall_not_mem (b := Proc.devRef .tc main_arg13) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_arg13 (fun w => by fin_cases w <;> decide)]

/-- THE FRAME from the run: the weights (a staged input) by the library's `Dat.arrAt_in`, every other argument array
    a buffer no window stages and no host line writes. -/
theorem frame_of (hA : ∀ c w, (dats 0 c).A w = V m c (Pipeline.arrRef spec0 w))
    (h : θ_run defs (onTc (τ := τ) (main (F := Ideal))) (s₀ m ρ) (Pipeline.FramePost cfgs dats 0 (Pipeline.afterTail₀ cfgs dats 0 (V0 m) [hostOps1, hostOps1_1]))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans ((tail_main_arg0 m dats c).trans (V_main_arg0 m c)),
      ((h c).2 main_arg1 (Pipeline.mem_restRefs_of main_arg1 (by decide) (by decide))).trans ((tail_main_arg1 m dats c).trans (V_main_arg1 m c)),
      ((h c).2 main_arg2 (Pipeline.mem_restRefs_of main_arg2 (by decide) (by decide))).trans ((tail_main_arg2 m dats c).trans (V_main_arg2 m c)),
      ((h c).2 main_arg3 (Pipeline.mem_restRefs_of main_arg3 (by decide) (by decide))).trans ((tail_main_arg3 m dats c).trans (V_main_arg3 m c)),
      ((h c).2 main_arg4 (Pipeline.mem_restRefs_of main_arg4 (by decide) (by decide))).trans ((tail_main_arg4 m dats c).trans (V_main_arg4 m c)),
      ((h c).2 main_arg5 (Pipeline.mem_restRefs_of main_arg5 (by decide) (by decide))).trans ((tail_main_arg5 m dats c).trans (V_main_arg5 m c)),
      ((h c).2 main_arg6 (Pipeline.mem_restRefs_of main_arg6 (by decide) (by decide))).trans ((tail_main_arg6 m dats c).trans (V_main_arg6 m c)),
      ((h c).2 main_arg7 (Pipeline.mem_restRefs_of main_arg7 (by decide) (by decide))).trans ((tail_main_arg7 m dats c).trans (V_main_arg7 m c)),
      ((h c).2 main_arg8 (Pipeline.mem_restRefs_of main_arg8 (by decide) (by decide))).trans ((tail_main_arg8 m dats c).trans (V_main_arg8 m c)),
      ((h c).2 main_arg9 (Pipeline.mem_restRefs_of main_arg9 (by decide) (by decide))).trans ((tail_main_arg9 m dats c).trans (V_main_arg9 m c)),
      ((h c).2 main_arg10 (Pipeline.mem_restRefs_of main_arg10 (by decide) (by decide))).trans ((tail_main_arg10 m dats c).trans (V_main_arg10 m c)),
      ((h c).2 main_arg11 (Pipeline.mem_restRefs_of main_arg11 (by decide) (by decide))).trans ((tail_main_arg11 m dats c).trans (V_main_arg11 m c)),
      ((h c).1 1).trans (((dats 0 c).arrAt_in 1 rfl _).trans ((hA c 1).trans (V_main_arg12 m c))),
      ((h c).2 main_arg13 (Pipeline.mem_restRefs_of main_arg13 (by decide) (by decide))).trans ((tail_main_arg13 m dats c).trans (V_main_arg13 m c))⟩) h

end Cert.KernelIdeal.Around

end
-- ==== Proof.IdealFinal.lean ====
/-
  What the idealized kernel's run leaves, read as values. The logits array after the thirteen write-backs is the logits
  row: each point writes back the part of its block inside the array, which is that part of the row, and the thirteen
  parts cover the 50257 columns (column `v` lies in block `v / 4096`). The buffers after the later host lines are those
  lines' results from the region's exit, where the logits array holds the row and the hidden row's array, an input, is
  as the region found it.
-/
import proofs.«141799_j52441550684336_2_alg».proof.Proof.IdealRun

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The logits array after the run -/

/-- What point `t` writes back is its block of the logits row. -/
theorem flushed3 (c : Dev nD) (t : Fin cfg0.N) :
    (dats m 0 c).flushed 3 t = ((cfg0.win 3).blk t).view.read (Elt Ideal) (logitsK m c) := by
  show (cfg0.win 3).cut (cfg0.grid.coords t) ((dats m 0 c).after 3 t) = _
  rw [after0_3]
  exact win0_3.cut_fill _ _ _

/-- An index of the logits array is under point `t`'s block iff, axis by axis, it is among the block's coordinates
    inside the array. -/
theorem mem_blk3 (t : Fin cfg0.N) (i : S1x50257.Idx) :
    i ∈ (win0_3.blk t).view.set ↔ ∀ a, win0_3.index t a * win0_3.size a ≤ (i a : Nat) ∧ (i a : Nat) < win0_3.index t a * win0_3.size a + win0_3.xsize (grid0.coords t) a := by
  show i ∈ ((View.whole main_v66).slice (win0_3.rect t)).set ↔ _
  rw [View.set_slice_whole, Rect.mem_set_unit]

/-- The cut of the last axis in closed form: a block ends at its own end or at the array's. -/
theorem xs3_closed : ∀ t : Fin cfg0.N, t.val * 4096 + win0_3.xsize (grid0.coords t) 1 = min (t.val * 4096 + 4096) 50257 :=
  (by decide +kernel : ∀ t : Fin grid0.N, t.val * 4096 + win0_3.xsize (grid0.coords t) 1 = min (t.val * 4096 + 4096) 50257)

/-- Every column is under some point's block: column `v` under block `v / 4096`. -/
theorem cover3 (i : S1x50257.Idx) : ∃ t : Fin cfg0.N, (cfg0.win 3).flush t = true ∧ i ∈ ((cfg0.win 3).blk t).view.set := by
  have h1 : (i 1).val < 50257 := (i 1).isLt
  have h0 : (i 0).val < 1 := (i 0).isLt
  have hN : cfg0.N = 13 := N_0
  obtain ⟨t0, ht0⟩ : ∃ t0 : Fin cfg0.N, t0.val = (i 1).val / 4096 := ⟨⟨(i 1).val / 4096, by rw [hN]; omega⟩, rfl⟩
  refine ⟨t0, flush0_3 t0, ?_⟩
  show i ∈ (win0_3.blk t0).view.set
  rw [mem_blk3]
  intro a
  have hi := idx_facts t0
  have hx := xs_facts t0
  have hc := xs3_closed t0
  match a with
  | ⟨0, _⟩ =>
    show win0_3.index t0 0 * 1 ≤ (i 0).val ∧ (i 0).val < win0_3.index t0 0 * 1 + win0_3.xsize (grid0.coords t0) 0
    rw [hi.2.2.2.2.2.2.1, hx.1]; omega
  | ⟨1, _⟩ =>
    show win0_3.index t0 1 * 4096 ≤ (i 1).val ∧ (i 1).val < win0_3.index t0 1 * 4096 + win0_3.xsize (grid0.coords t0) 1
    rw [hi.2.2.2.2.2.2.2]
    omega

/-- THE LOGITS ARRAY after the run is the logits row. -/
theorem final3 (c : Dev nD) : (dats m 0 c).arrAt 3 cfg0.N = logitsK m c :=
  (dats m 0 c).arrAt_eq_of_cover 3 (logitsK m c) (fun t _ => flushed3 m c t) cover3

/-! ## The buffers after the later host lines -/

/-- The buffers at the region's exit: the four arrays at what the write-backs leave, the rest as the region found them. -/
abbrev WA (c : Dev nD) : Valuation τ sig (Elt Ideal) :=
  Pipeline.withArrays spec0 c (V0 m c) fun w => (dats m 0 c).arrAt w cfg0.N

theorem WA_v66 (c : Dev nD) : WA m c (Proc.devRef .tc main_v66) = logitsK m c :=
  (Pipeline.withArrays_arr spec0 launch0.win.arr_inj c _ _ 3).trans (final3 m c)

theorem WA_v64 (c : Dev nD) : WA m c (Proc.devRef .tc main_v64) = V m c main_v64 :=
  (Pipeline.withArrays_arr spec0 launch0.win.arr_inj c _ _ 0).trans (((dats m 0 c).arrAt_in 0 rfl _).trans (A_eq m c 0))

/-- The later host lines' results are their fold from the region's exit. -/
theorem tail_eq (c : Dev nD) (b : Ref sig .tc) :
    Pipeline.afterTail₀ cfgs (dats m) 0 (V0 m) [hostOps1, hostOps1_1] c b
      = StableHlo.after (hostOps1 ++ hostOps1_1) (WA m c) (Proc.devRef .tc b) := by
  unfold Pipeline.afterTail₀
  simp only [List.flatten_cons, List.flatten_nil, List.append_nil]

/-- The attention weights are no array of the region and no later line writes them: they end as the region found them. -/
theorem tail_v21 (c : Dev nD) : Pipeline.afterTail₀ cfgs (dats m) 0 (V0 m) [hostOps1, hostOps1_1] c main_v21 = V m c main_v21 := by
  unfold Pipeline.afterTail₀
  rw [StableHlo.after_of_forall_not_mem (b := Proc.devRef .tc main_v21) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide))),
    Pipeline.withArrays_of_ne _ c _ _ main_v21 (fun w => by fin_cases w <;> decide)]

end Cert.KernelIdeal.Around

end
-- ==== Proof.IdealSplit.lean ====
/-
  The host lines before the idealized kernel's region cut in two: the eight operations that produce the embedding row
  (the index wrapped, the row sliced out of the table), and the rest (the attention, the combination, the GRU cell, and
  the bias laid out as a row). The first stretch writes no argument array; the bias row the region stages is the bias
  array read at its one coordinate.
-/
import proofs.«141799_j52441550684336_2_alg».proof.Proof.IdealFinal

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.StableHlo

variable {F : FTy → Type} [FloatOps F]

/-- The embedding row's operations, -/
abbrev opsEmbK : List (HloOp τ sig (Elt F)) := (hostOps0 (F := F)).take 8
/-- and the others before the region. -/
abbrev opsCellK : List (HloOp τ sig (Elt F)) := (hostOps0 (F := F)).drop 8 ++ (hostOps0_1 ++ hostOps0_2)

/-- The buffers when the region is entered are the two folds in turn. -/
theorem V0_split (m : (ℓ : Loc nD τ sig) → Buf (Elt F) ℓ) (c : Dev nD) :
    V0 m c = after opsCellK (after opsEmbK (fun b => m (c, b))) := by
  show after (List.flatten [hostOps0, hostOps0_1, hostOps0_2]) (fun b => m (c, b)) = _
  rw [← after_append]
  refine congrArg (fun l => after l (fun b => m (c, b))) ?_
  simp only [List.flatten_cons, List.flatten_nil, List.append_nil]
  show _ = List.take 8 hostOps0 ++ (List.drop 8 hostOps0 ++ (hostOps0_1 ++ hostOps0_2))
  rw [← List.append_assoc (List.take 8 hostOps0), List.take_append_drop]

theorem embK_keeps_main_arg1 (W : Valuation τ sig (Elt F)) : after (opsEmbK (F := F)) W (Proc.devRef .tc main_arg1) = W (Proc.devRef .tc main_arg1) := by
  simp only [opsEmbK, hostOps0, List.take_succ_cons, List.take_zero]
  after_results

theorem embK_keeps_main_arg2 (W : Valuation τ sig (Elt F)) : after (opsEmbK (F := F)) W (Proc.devRef .tc main_arg2) = W (Proc.devRef .tc main_arg2) := by
  simp only [opsEmbK, hostOps0, List.take_succ_cons, List.take_zero]
  after_results

theorem embK_keeps_main_arg4 (W : Valuation τ sig (Elt F)) : after (opsEmbK (F := F)) W (Proc.devRef .tc main_arg4) = W (Proc.devRef .tc main_arg4) := by
  simp only [opsEmbK, hostOps0, List.take_succ_cons, List.take_zero]
  after_results

theorem embK_keeps_main_arg5 (W : Valuation τ sig (Elt F)) : after (opsEmbK (F := F)) W (Proc.devRef .tc main_arg5) = W (Proc.devRef .tc main_arg5) := by
  simp only [opsEmbK, hostOps0, List.take_succ_cons, List.take_zero]
  after_results

theorem embK_keeps_main_arg6 (W : Valuation τ sig (Elt F)) : after (opsEmbK (F := F)) W (Proc.devRef .tc main_arg6) = W (Proc.devRef .tc main_arg6) := by
  simp only [opsEmbK, hostOps0, List.take_succ_cons, List.take_zero]
  after_results

theorem embK_keeps_main_arg7 (W : Valuation τ sig (Elt F)) : after (opsEmbK (F := F)) W (Proc.devRef .tc main_arg7) = W (Proc.devRef .tc main_arg7) := by
  simp only [opsEmbK, hostOps0, List.take_succ_cons, List.take_zero]
  after_results

theorem embK_keeps_main_arg8 (W : Valuation τ sig (Elt F)) : after (opsEmbK (F := F)) W (Proc.devRef .tc main_arg8) = W (Proc.devRef .tc main_arg8) := by
  simp only [opsEmbK, hostOps0, List.take_succ_cons, List.take_zero]
  after_results

theorem embK_keeps_main_arg9 (W : Valuation τ sig (Elt F)) : after (opsEmbK (F := F)) W (Proc.devRef .tc main_arg9) = W (Proc.devRef .tc main_arg9) := by
  simp only [opsEmbK, hostOps0, List.take_succ_cons, List.take_zero]
  after_results

theorem embK_keeps_main_arg10 (W : Valuation τ sig (Elt F)) : after (opsEmbK (F := F)) W (Proc.devRef .tc main_arg10) = W (Proc.devRef .tc main_arg10) := by
  simp only [opsEmbK, hostOps0, List.take_succ_cons, List.take_zero]
  after_results

theorem embK_keeps_main_arg11 (W : Valuation τ sig (Elt F)) : after (opsEmbK (F := F)) W (Proc.devRef .tc main_arg11) = W (Proc.devRef .tc main_arg11) := by
  simp only [opsEmbK, hostOps0, List.take_succ_cons, List.take_zero]
  after_results

theorem embK_keeps_main_arg12 (W : Valuation τ sig (Elt F)) : after (opsEmbK (F := F)) W (Proc.devRef .tc main_arg12) = W (Proc.devRef .tc main_arg12) := by
  simp only [opsEmbK, hostOps0, List.take_succ_cons, List.take_zero]
  after_results

theorem embK_keeps_main_arg13 (W : Valuation τ sig (Elt F)) : after (opsEmbK (F := F)) W (Proc.devRef .tc main_arg13) = W (Proc.devRef .tc main_arg13) := by
  simp only [opsEmbK, hostOps0, List.take_succ_cons, List.take_zero]
  after_results

set_option maxHeartbeats 8000000 in
/-- The bias row as the region finds it: the bias array laid out [1, 50257]. -/
theorem V_v65 (m : (ℓ : Loc nD τ sig) → Buf (Elt Ideal) ℓ) (c : Dev nD) (q : Fin 50257) :
    (V m c main_v65) (ix2 (0 : Fin 1) q) = (m ((c : Thread nD τ).loc main_arg13)) (ix1 q) := by
  have e : (V m c main_v65 : S1x50257.Idx → EReal) = shapeCast S1x50257 (m ((c : Thread nD τ).loc main_arg13)) shapeCasts_S50257_S1x50257 := by
    dsimp only [V, V0]
    simp only [hostOps0, hostOps0_1, hostOps0_2, List.flatten_cons, List.flatten_nil, List.append_nil, List.cons_append, List.nil_append]
    after_results
    rfl
  rw [e]
  exact shapeCast_apply _ shapeCasts_S50257_S1x50257 (ix2 (0 : Fin 1) q) (ix1 q) (by
    rw [Shape.rowMajor_val_two, Shape.rowMajor_val_one]; show q.val = 0 * 50257 + q.val; omega)

end Cert.KernelIdeal.Around

end
-- ==== Proof.RefHand.lean ====
/-
  The reference program read by hand over its list of operations: the list cut in four stretches (the embedding row;
  the attention, the combination and the GRU cell; the output projection; the log-softmax and the hidden state's added
  axis), the fourteen argument arrays written by no operation (the frame), the output projection read at a column as
  the logits row — the new hidden row against the transposed weights is, column by column, the sum over the hidden
  coordinates of the row times that row of the weights, and the broadcast bias adds its entry —, and a [1, 1024] row
  reshaped to [1024] and broadcast back along axis 1, which is the row again.
-/
import proofs.«141799_j52441550684336_2_alg».proof.Proof.RefRunP
import proofs.«141799_j52441550684336_2_alg».proof.Proof.LogitsSpec
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen Cert.ReferenceIdeal.GenP Idealize.ShloMosaic Idealize.ShloMosaic.TcCoe Idealize.SL.Sem Idealize.ShloMosaic.StableHlo
open Idealize.ShloMosaic.ValueIdx

variable {F : FTy → Type} [FloatOps F]

/-! ## The four stretches -/

abbrev opsEmb : List (HloOp τ sig (Elt F)) := (ops (F := F)).take 17
abbrev opsCell : List (HloOp τ sig (Elt F)) := ((ops (F := F)).drop 17).take 70
abbrev opsLogits : List (HloOp τ sig (Elt F)) := (((ops (F := F)).drop 17).drop 70).take 4
abbrev opsTail : List (HloOp τ sig (Elt F)) := (((ops (F := F)).drop 17).drop 70).drop 4

theorem ops_split : (ops : List (HloOp τ sig (Elt F))) = opsEmb ++ (opsCell ++ (opsLogits ++ opsTail)) := by
  unfold opsEmb opsCell opsLogits opsTail
  rw [List.take_append_drop, List.take_append_drop, List.take_append_drop]

/-- The fold over the whole list is the four folds in turn. -/
theorem after_split (W : Valuation τ sig (Elt F)) :
    after (ops (F := F)) W = after opsTail (after opsLogits (after opsCell (after opsEmb W))) := by
  rw [ops_split, after_append, after_append, after_append]

/-! ## No operation writes an argument array -/

theorem ops_keeps_main_arg0 (W : Valuation τ sig (Elt F)) : after (ops (F := F)) W (Proc.devRef .tc main_arg0) = W (Proc.devRef .tc main_arg0) :=
  after_of_forall_not_mem (b := Proc.devRef .tc main_arg0) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg1 (W : Valuation τ sig (Elt F)) : after (ops (F := F)) W (Proc.devRef .tc main_arg1) = W (Proc.devRef .tc main_arg1) :=
  after_of_forall_not_mem (b := Proc.devRef .tc main_arg1) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg2 (W : Valuation τ sig (Elt F)) : after (ops (F := F)) W (Proc.devRef .tc main_arg2) = W (Proc.devRef .tc main_arg2) :=
  after_of_forall_not_mem (b := Proc.devRef .tc main_arg2) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg3 (W : Valuation τ sig (Elt F)) : after (ops (F := F)) W (Proc.devRef .tc main_arg3) = W (Proc.devRef .tc main_arg3) :=
  after_of_forall_not_mem (b := Proc.devRef .tc main_arg3) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg4 (W : Valuation τ sig (Elt F)) : after (ops (F := F)) W (Proc.devRef .tc main_arg4) = W (Proc.devRef .tc main_arg4) :=
  after_of_forall_not_mem (b := Proc.devRef .tc main_arg4) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg5 (W : Valuation τ sig (Elt F)) : after (ops (F := F)) W (Proc.devRef .tc main_arg5) = W (Proc.devRef .tc main_arg5) :=
  after_of_forall_not_mem (b := Proc.devRef .tc main_arg5) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg6 (W : Valuation τ sig (Elt F)) : after (ops (F := F)) W (Proc.devRef .tc main_arg6) = W (Proc.devRef .tc main_arg6) :=
  after_of_forall_not_mem (b := Proc.devRef .tc main_arg6) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg7 (W : Valuation τ sig (Elt F)) : after (ops (F := F)) W (Proc.devRef .tc main_arg7) = W (Proc.devRef .tc main_arg7) :=
  after_of_forall_not_mem (b := Proc.devRef .tc main_arg7) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg8 (W : Valuation τ sig (Elt F)) : after (ops (F := F)) W (Proc.devRef .tc main_arg8) = W (Proc.devRef .tc main_arg8) :=
  after_of_forall_not_mem (b := Proc.devRef .tc main_arg8) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg9 (W : Valuation τ sig (Elt F)) : after (ops (F := F)) W (Proc.devRef .tc main_arg9) = W (Proc.devRef .tc main_arg9) :=
  after_of_forall_not_mem (b := Proc.devRef .tc main_arg9) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg10 (W : Valuation τ sig (Elt F)) : after (ops (F := F)) W (Proc.devRef .tc main_arg10) = W (Proc.devRef .tc main_arg10) :=
  after_of_forall_not_mem (b := Proc.devRef .tc main_arg10) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg11 (W : Valuation τ sig (Elt F)) : after (ops (F := F)) W (Proc.devRef .tc main_arg11) = W (Proc.devRef .tc main_arg11) :=
  after_of_forall_not_mem (b := Proc.devRef .tc main_arg11) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg12 (W : Valuation τ sig (Elt F)) : after (ops (F := F)) W (Proc.devRef .tc main_arg12) = W (Proc.devRef .tc main_arg12) :=
  after_of_forall_not_mem (b := Proc.devRef .tc main_arg12) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem ops_keeps_main_arg13 (W : Valuation τ sig (Elt F)) : after (ops (F := F)) W (Proc.devRef .tc main_arg13) = W (Proc.devRef .tc main_arg13) :=
  after_of_forall_not_mem (b := Proc.devRef .tc main_arg13) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

/-- THE FRAME of the reference: it runs, and its argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_arg0).trans (ops_keeps_main_arg0 _),
      (h c main_arg1).trans (ops_keeps_main_arg1 _),
      (h c main_arg2).trans (ops_keeps_main_arg2 _),
      (h c main_arg3).trans (ops_keeps_main_arg3 _),
      (h c main_arg4).trans (ops_keeps_main_arg4 _),
      (h c main_arg5).trans (ops_keeps_main_arg5 _),
      (h c main_arg6).trans (ops_keeps_main_arg6 _),
      (h c main_arg7).trans (ops_keeps_main_arg7 _),
      (h c main_arg8).trans (ops_keeps_main_arg8 _),
      (h c main_arg9).trans (ops_keeps_main_arg9 _),
      (h c main_arg10).trans (ops_keeps_main_arg10 _),
      (h c main_arg11).trans (ops_keeps_main_arg11 _),
      (h c main_arg12).trans (ops_keeps_main_arg12 _),
      (h c main_arg13).trans (ops_keeps_main_arg13 _)⟩) (GenP.run m ρ)

/-! ## The output projection read at a column -/

theorem lhs_0 (i : S1x50257.Idx) (q : dot_S1x1024_S1024x50257_S1x50257_1_0_0_1_n_n.contr.Idx) : (dot_S1x1024_S1024x50257_S1x50257_1_0_0_1_n_n.lhsIdx i q 0).val = (i 0).val := by
  unfold DotDims.lhsIdx
  rw [dif_neg (show ¬(0 : Fin S1x1024.rank) ∈ dot_S1x1024_S1024x50257_S1x50257_1_0_0_1_n_n.lhsBatch by decide), dif_pos (show (0 : Fin S1x1024.rank) ∈ dot_S1x1024_S1024x50257_S1x50257_1_0_0_1_n_n.lhsNonContracting by decide)]
  rfl
theorem lhs_1 (i : S1x50257.Idx) (q : dot_S1x1024_S1024x50257_S1x50257_1_0_0_1_n_n.contr.Idx) : (dot_S1x1024_S1024x50257_S1x50257_1_0_0_1_n_n.lhsIdx i q 1).val = (q ⟨0, by decide⟩).val :=
  dot_S1x1024_S1024x50257_S1x50257_1_0_0_1_n_n.lhsIdx_val_of_single rfl i q
theorem rhs_0 (i : S1x50257.Idx) (q : dot_S1x1024_S1024x50257_S1x50257_1_0_0_1_n_n.contr.Idx) : (dot_S1x1024_S1024x50257_S1x50257_1_0_0_1_n_n.rhsIdx i q 0).val = (q ⟨0, by decide⟩).val :=
  dot_S1x1024_S1024x50257_S1x50257_1_0_0_1_n_n.rhsIdx_val_of_single rfl i q
theorem rhs_1 (i : S1x50257.Idx) (q : dot_S1x1024_S1024x50257_S1x50257_1_0_0_1_n_n.contr.Idx) : (dot_S1x1024_S1024x50257_S1x50257_1_0_0_1_n_n.rhsIdx i q 1).val = (i 1).val := by
  unfold DotDims.rhsIdx
  rw [dif_neg (show ¬(1 : Fin S1024x50257.rank) ∈ dot_S1x1024_S1024x50257_S1x50257_1_0_0_1_n_n.rhsBatch by decide), dif_pos (show (1 : Fin S1024x50257.rank) ∈ dot_S1x1024_S1024x50257_S1x50257_1_0_0_1_n_n.rhsNonContracting by decide)]
  rfl

/-- The product with the transposed weights plus the broadcast bias is the logits row. -/
theorem proj_eq (h : FVec Ideal S1x1024 .f32) (w : FVec Ideal S50257x1024 .f32) (b : FVec Ideal S50257 .f32) :
    addf (Host.dotGeneral dot_S1x1024_S1024x50257_S1x50257_1_0_0_1_n_n none h (transpose S1024x50257 [1, 0] w transposes_S50257x1024_S1024x50257_1_0))
        (broadcastInDim S1x50257 ![1] bcast_S50257_S1x50257_1 b)
      = Cert.OutProj.logits h w b := by
  funext j
  rw [Cert.OutProj.logits_apply, addf_apply]
  refine congrArg₂ (· + ·) ?_ ?_
  · simp only [Host.dotGeneral]
    rw [Ideal.dotGeneral_apply, ← Equiv.sum_comp (ValueIdx.contrEquiv1 dot_S1x1024_S1024x50257_S1x50257_1_0_0_1_n_n 1024 rfl rfl).symm]
    refine Finset.sum_congr rfl fun k _ => ?_
    have hk := ValueIdx.contrEquiv1_symm_val dot_S1x1024_S1024x50257_S1x50257_1_0_0_1_n_n 1024 rfl rfl k
    have hj0 : (j 0).val = 0 := by have hlt : (j 0).val < 1 := (j 0).isLt; omega
    have el : dot_S1x1024_S1024x50257_S1x50257_1_0_0_1_n_n.lhsIdx j ((ValueIdx.contrEquiv1 dot_S1x1024_S1024x50257_S1x50257_1_0_0_1_n_n 1024 rfl rfl).symm k) = ix2 (0 : Fin 1) k := funext fun a => Fin.ext (by
      match a with
      | ⟨0, _⟩ => exact (lhs_0 _ _).trans hj0
      | ⟨1, _⟩ => exact (lhs_1 _ _).trans hk)
    have er : dot_S1x1024_S1024x50257_S1x50257_1_0_0_1_n_n.rhsIdx j ((ValueIdx.contrEquiv1 dot_S1x1024_S1024x50257_S1x50257_1_0_0_1_n_n 1024 rfl rfl).symm k) = ix2 k (j 1) := funext fun a => Fin.ext (by
      match a with
      | ⟨0, _⟩ => exact (rhs_0 _ _).trans hk
      | ⟨1, _⟩ => exact rhs_1 _ _)
    rw [el, er]
    exact congrArg _ (transpose_apply [1, 0] w transposes_S50257x1024_S1024x50257_1_0 (ix2 k (j 1)) (ix2 (j 1) k) (fun b => match b with
      | ⟨0, _⟩ => rfl
      | ⟨1, _⟩ => rfl))
  · exact broadcastInDim_apply _ bcast_S50257_S1x50257_1 b j (ix1 (j 1)) (fun a => match a with
      | ⟨0, _⟩ => by show (j 1).val = if (50257 : Nat) = 1 then 0 else (j 1).val; rw [if_neg (by decide)])

/-- The output projection's stretch leaves the logits row in its last buffer. -/
theorem logits_ref (W : Valuation τ sig (Elt Ideal)) :
    after (opsLogits (F := Ideal)) W (Proc.devRef .tc main_v73)
      = Cert.OutProj.logits (W (Proc.devRef .tc main_v69)) (W (Proc.devRef .tc main_arg12)) (W (Proc.devRef .tc main_arg13)) := by
  simp only [opsLogits, ops, List.take_succ_cons, List.take_zero, List.drop_succ_cons, List.drop_zero]
  after_results
  exact proj_eq _ _ _

/-- and writes neither the new hidden row nor anything before it. -/
theorem logits_keeps_v69 (W : Valuation τ sig (Elt F)) : after (opsLogits (F := F)) W (Proc.devRef .tc main_v69) = W (Proc.devRef .tc main_v69) := by
  simp only [opsLogits, ops, List.take_succ_cons, List.take_zero, List.drop_succ_cons, List.drop_zero]
  after_results

end Cert.ReferenceIdeal.Hand

end
-- ==== Proof.Bridge.lean ====
/-
  The two programs' later host lines side by side, over the extended reals, at any contents of their buffers that agree
  where the lines read them: the log-softmax and the hidden state's added axis are the same operations in both, on the
  logits row and on the new hidden row.
-/
import proofs.«141799_j52441550684336_2_alg».proof.Proof.IdealSplit
import proofs.«141799_j52441550684336_2_alg».proof.Proof.RefHand

set_option maxRecDepth 16384

noncomputable section

namespace Cert.Bridge

open Idealize.ShloMosaic Idealize.ShloMosaic.TcCoe Idealize.ShloMosaic.ValueIdx Idealize.ShloMosaic.StableHlo
open Idealize.SL.Sem

variable (Wk : Valuation Cert.KernelIdeal.τ Cert.KernelIdeal.sig (Elt Ideal)) (Wr : Valuation Cert.ReferenceIdeal.τ Cert.ReferenceIdeal.sig (Elt Ideal))

/-! ## The later lines -/

set_option maxHeartbeats 2000000 in
/-- The log-softmax of the same logits row is the same row, and the same hidden row with an axis added the same state. -/
theorem tail_eq (h66 : ((Wk (Proc.devRef .tc Cert.KernelIdeal.main_v66)) : (⟨2, ![1, 50257]⟩ : Shape).Idx → EReal) = (Wr (Proc.devRef .tc Cert.ReferenceIdeal.main_v73)))
    (h64 : ((Wk (Proc.devRef .tc Cert.KernelIdeal.main_v64)) : (⟨2, ![1, 1024]⟩ : Shape).Idx → EReal) = (Wr (Proc.devRef .tc Cert.ReferenceIdeal.main_v69))) :
    ((after (Cert.KernelIdeal.Gen.hostOps1 ++ Cert.KernelIdeal.Gen.hostOps1_1) Wk (Proc.devRef .tc Cert.KernelIdeal.main_v67) : (⟨2, ![1, 50257]⟩ : Shape).Idx → EReal)
        = after Cert.ReferenceIdeal.Hand.opsTail Wr (Proc.devRef .tc Cert.ReferenceIdeal.main_v74))
      ∧ ((after (Cert.KernelIdeal.Gen.hostOps1 ++ Cert.KernelIdeal.Gen.hostOps1_1) Wk (Proc.devRef .tc Cert.KernelIdeal.main_v68) : (⟨3, ![1, 1, 1024]⟩ : Shape).Idx → EReal)
        = after Cert.ReferenceIdeal.Hand.opsTail Wr (Proc.devRef .tc Cert.ReferenceIdeal.main_v75)) := by
  simp only [Cert.KernelIdeal.Gen.hostOps1, Cert.KernelIdeal.Gen.hostOps1_1, Cert.ReferenceIdeal.Hand.opsTail, Cert.ReferenceIdeal.GenP.ops, List.take_succ_cons, List.take_zero, List.drop_succ_cons, List.drop_zero,
    List.cons_append, List.nil_append]
  constructor
  · after_results
    rw [h66]
  · after_results
    rw [h64]

end Cert.Bridge

end
-- ==== Proof.BridgeEmb.lean ====
/-
  The embedding rows of the two programs are one row. Both slice one row out of the table at the same wrapped index;
  the reference's start column is the word it computes from constants (the word 0: "0 < 0" is false) where the kernel's
  is the word 0; and the reference lays the row out [1024] and broadcasts it back along axis 1, which is the row again.
-/
import proofs.«141799_j52441550684336_2_alg».proof.Proof.IdealSplit
import proofs.«141799_j52441550684336_2_alg».proof.Proof.RefHand

set_option maxRecDepth 16384

noncomputable section

namespace Cert.Bridge

open Idealize.ShloMosaic Idealize.ShloMosaic.TcCoe Idealize.ShloMosaic.ValueIdx Idealize.ShloMosaic.StableHlo
open Idealize.SL.Sem

variable (Wk : Valuation Cert.KernelIdeal.τ Cert.KernelIdeal.sig (Elt Ideal)) (Wr : Valuation Cert.ReferenceIdeal.τ Cert.ReferenceIdeal.sig (Elt Ideal))

/-- A [1, 1024] row laid out [1024] and broadcast back along axis 1 is the row. -/
theorem row_roundtrip (X : (⟨2, ![1, 1024]⟩ : Shape).Idx → EReal) :
    broadcastInDim Cert.ReferenceIdeal.S1x1024 ![1] Cert.ReferenceIdeal.Gen.bcast_S1024_S1x1024_1 (shapeCast Cert.ReferenceIdeal.S1024 X Cert.ReferenceIdeal.Gen.shapeCasts_S1x1024_S1024) = X := by
  funext j
  rw [broadcastInDim_apply _ Cert.ReferenceIdeal.Gen.bcast_S1024_S1x1024_1 _ j (ix1 (j 1)) (fun a => match a with
    | ⟨0, _⟩ => by show (j 1).val = if (1024 : Nat) = 1 then 0 else (j 1).val; rw [if_neg (by decide)])]
  exact shapeCast_apply _ Cert.ReferenceIdeal.Gen.shapeCasts_S1x1024_S1024 (ix1 (j 1)) j (by
    have h0 : (j 0).val < 1 := (j 0).isLt
    rw [Shape.rowMajor_val_two, Shape.rowMajor_val_one]; show (j 0).val * 1024 + (j 1).val = (j 1).val; omega)

set_option maxHeartbeats 2000000 in
/-- THE EMBEDDING ROWS agree, from buffers that agree on the index and on the table. -/
theorem emb_eq (h0 : ((Wk (Proc.devRef .tc Cert.KernelIdeal.main_arg0)) : (⟨1, ![1]⟩ : Shape).Idx → BitVec 32) = (Wr (Proc.devRef .tc Cert.ReferenceIdeal.main_arg0)))
    (h3 : ((Wk (Proc.devRef .tc Cert.KernelIdeal.main_arg3)) : (⟨2, ![50257, 1024]⟩ : Shape).Idx → EReal) = (Wr (Proc.devRef .tc Cert.ReferenceIdeal.main_arg3))) :
    ((after Cert.KernelIdeal.Around.opsEmbK Wk (Proc.devRef .tc Cert.KernelIdeal.main_v4) : (⟨2, ![1, 1024]⟩ : Shape).Idx → EReal)
      = after Cert.ReferenceIdeal.Hand.opsEmb Wr (Proc.devRef .tc Cert.ReferenceIdeal.main_v9)) := by
  simp only [Cert.KernelIdeal.Around.opsEmbK, Cert.KernelIdeal.Gen.hostOps0, Cert.ReferenceIdeal.Hand.opsEmb, Cert.ReferenceIdeal.GenP.ops, List.take_succ_cons, List.take_zero, List.drop_succ_cons, List.drop_zero]
  after_results
  refine Eq.trans ?_ (row_roundtrip _).symm
  rw [h3]
  congr 1
  funext k
  fin_cases k
  · dsimp only
    try simp only [Matrix.cons_val_zero', Matrix.cons_val_succ', Fin.zero_eta, Fin.mk_one, Matrix.cons_val_zero, Matrix.cons_val_one, Matrix.head_cons]
    after_results_simp
    rw [h0]
    rfl
  · dsimp only
    try simp only [Matrix.cons_val_zero', Matrix.cons_val_succ', Fin.zero_eta, Fin.mk_one, Matrix.cons_val_zero, Matrix.cons_val_one, Matrix.head_cons]
    after_results_simp
    rfl

end Cert.Bridge

end
-- ==== Proof.BridgeKeeps.lean ====
/-
  What each stretch of the cell's operations leaves alone, in both programs: the buffers the later stretches still read.
-/
import proofs.«141799_j52441550684336_2_alg».proof.Proof.IdealSplit
import proofs.«141799_j52441550684336_2_alg».proof.Proof.RefHand

set_option maxRecDepth 16384

noncomputable section

namespace Cert.Bridge

open Idealize.ShloMosaic Idealize.ShloMosaic.TcCoe Idealize.ShloMosaic.ValueIdx Idealize.ShloMosaic.StableHlo
open Idealize.SL.Sem

theorem kA_keeps_main_v4 (W : Valuation Cert.KernelIdeal.τ Cert.KernelIdeal.sig (Elt Ideal)) : after (((Cert.KernelIdeal.Gen.hostOps0 (F := Ideal)).drop 8).take 20) W (Proc.devRef .tc Cert.KernelIdeal.main_v4) = W (Proc.devRef .tc Cert.KernelIdeal.main_v4) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kA_keeps_main_arg2 (W : Valuation Cert.KernelIdeal.τ Cert.KernelIdeal.sig (Elt Ideal)) : after (((Cert.KernelIdeal.Gen.hostOps0 (F := Ideal)).drop 8).take 20) W (Proc.devRef .tc Cert.KernelIdeal.main_arg2) = W (Proc.devRef .tc Cert.KernelIdeal.main_arg2) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kA_keeps_main_arg6 (W : Valuation Cert.KernelIdeal.τ Cert.KernelIdeal.sig (Elt Ideal)) : after (((Cert.KernelIdeal.Gen.hostOps0 (F := Ideal)).drop 8).take 20) W (Proc.devRef .tc Cert.KernelIdeal.main_arg6) = W (Proc.devRef .tc Cert.KernelIdeal.main_arg6) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kA_keeps_main_arg7 (W : Valuation Cert.KernelIdeal.τ Cert.KernelIdeal.sig (Elt Ideal)) : after (((Cert.KernelIdeal.Gen.hostOps0 (F := Ideal)).drop 8).take 20) W (Proc.devRef .tc Cert.KernelIdeal.main_arg7) = W (Proc.devRef .tc Cert.KernelIdeal.main_arg7) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kA_keeps_main_arg8 (W : Valuation Cert.KernelIdeal.τ Cert.KernelIdeal.sig (Elt Ideal)) : after (((Cert.KernelIdeal.Gen.hostOps0 (F := Ideal)).drop 8).take 20) W (Proc.devRef .tc Cert.KernelIdeal.main_arg8) = W (Proc.devRef .tc Cert.KernelIdeal.main_arg8) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kA_keeps_main_arg9 (W : Valuation Cert.KernelIdeal.τ Cert.KernelIdeal.sig (Elt Ideal)) : after (((Cert.KernelIdeal.Gen.hostOps0 (F := Ideal)).drop 8).take 20) W (Proc.devRef .tc Cert.KernelIdeal.main_arg9) = W (Proc.devRef .tc Cert.KernelIdeal.main_arg9) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kA_keeps_main_arg10 (W : Valuation Cert.KernelIdeal.τ Cert.KernelIdeal.sig (Elt Ideal)) : after (((Cert.KernelIdeal.Gen.hostOps0 (F := Ideal)).drop 8).take 20) W (Proc.devRef .tc Cert.KernelIdeal.main_arg10) = W (Proc.devRef .tc Cert.KernelIdeal.main_arg10) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kA_keeps_main_arg11 (W : Valuation Cert.KernelIdeal.τ Cert.KernelIdeal.sig (Elt Ideal)) : after (((Cert.KernelIdeal.Gen.hostOps0 (F := Ideal)).drop 8).take 20) W (Proc.devRef .tc Cert.KernelIdeal.main_arg11) = W (Proc.devRef .tc Cert.KernelIdeal.main_arg11) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem rA_keeps_main_v9 (W : Valuation Cert.ReferenceIdeal.τ Cert.ReferenceIdeal.sig (Elt Ideal)) : after ((Cert.ReferenceIdeal.Hand.opsCell (F := Ideal)).take 20) W (Proc.devRef .tc Cert.ReferenceIdeal.main_v9) = W (Proc.devRef .tc Cert.ReferenceIdeal.main_v9) := by
  simp only [Cert.ReferenceIdeal.Hand.opsCell, Cert.ReferenceIdeal.GenP.ops, List.take_succ_cons, List.take_zero, List.drop_succ_cons, List.drop_zero, List.cons_append, List.nil_append]
  after_results
theorem rA_keeps_main_arg2 (W : Valuation Cert.ReferenceIdeal.τ Cert.ReferenceIdeal.sig (Elt Ideal)) : after ((Cert.ReferenceIdeal.Hand.opsCell (F := Ideal)).take 20) W (Proc.devRef .tc Cert.ReferenceIdeal.main_arg2) = W (Proc.devRef .tc Cert.ReferenceIdeal.main_arg2) := by
  simp only [Cert.ReferenceIdeal.Hand.opsCell, Cert.ReferenceIdeal.GenP.ops, List.take_succ_cons, List.take_zero, List.drop_succ_cons, List.drop_zero, List.cons_append, List.nil_append]
  after_results
theorem rA_keeps_main_arg6 (W : Valuation Cert.ReferenceIdeal.τ Cert.ReferenceIdeal.sig (Elt Ideal)) : after ((Cert.ReferenceIdeal.Hand.opsCell (F := Ideal)).take 20) W (Proc.devRef .tc Cert.ReferenceIdeal.main_arg6) = W (Proc.devRef .tc Cert.ReferenceIdeal.main_arg6) := by
  simp only [Cert.ReferenceIdeal.Hand.opsCell, Cert.ReferenceIdeal.GenP.ops, List.take_succ_cons, List.take_zero, List.drop_succ_cons, List.drop_zero, List.cons_append, List.nil_append]
  after_results
theorem rA_keeps_main_arg7 (W : Valuation Cert.ReferenceIdeal.τ Cert.ReferenceIdeal.sig (Elt Ideal)) : after ((Cert.ReferenceIdeal.Hand.opsCell (F := Ideal)).take 20) W (Proc.devRef .tc Cert.ReferenceIdeal.main_arg7) = W (Proc.devRef .tc Cert.ReferenceIdeal.main_arg7) := by
  simp only [Cert.ReferenceIdeal.Hand.opsCell, Cert.ReferenceIdeal.GenP.ops, List.take_succ_cons, List.take_zero, List.drop_succ_cons, List.drop_zero, List.cons_append, List.nil_append]
  after_results
theorem rA_keeps_main_arg8 (W : Valuation Cert.ReferenceIdeal.τ Cert.ReferenceIdeal.sig (Elt Ideal)) : after ((Cert.ReferenceIdeal.Hand.opsCell (F := Ideal)).take 20) W (Proc.devRef .tc Cert.ReferenceIdeal.main_arg8) = W (Proc.devRef .tc Cert.ReferenceIdeal.main_arg8) := by
  simp only [Cert.ReferenceIdeal.Hand.opsCell, Cert.ReferenceIdeal.GenP.ops, List.take_succ_cons, List.take_zero, List.drop_succ_cons, List.drop_zero, List.cons_append, List.nil_append]
  after_results
theorem rA_keeps_main_arg9 (W : Valuation Cert.ReferenceIdeal.τ Cert.ReferenceIdeal.sig (Elt Ideal)) : after ((Cert.ReferenceIdeal.Hand.opsCell (F := Ideal)).take 20) W (Proc.devRef .tc Cert.ReferenceIdeal.main_arg9) = W (Proc.devRef .tc Cert.ReferenceIdeal.main_arg9) := by
  simp only [Cert.ReferenceIdeal.Hand.opsCell, Cert.ReferenceIdeal.GenP.ops, List.take_succ_cons, List.take_zero, List.drop_succ_cons, List.drop_zero, List.cons_append, List.nil_append]
  after_results
theorem rA_keeps_main_arg10 (W : Valuation Cert.ReferenceIdeal.τ Cert.ReferenceIdeal.sig (Elt Ideal)) : after ((Cert.ReferenceIdeal.Hand.opsCell (F := Ideal)).take 20) W (Proc.devRef .tc Cert.ReferenceIdeal.main_arg10) = W (Proc.devRef .tc Cert.ReferenceIdeal.main_arg10) := by
  simp only [Cert.ReferenceIdeal.Hand.opsCell, Cert.ReferenceIdeal.GenP.ops, List.take_succ_cons, List.take_zero, List.drop_succ_cons, List.drop_zero, List.cons_append, List.nil_append]
  after_results
theorem rA_keeps_main_arg11 (W : Valuation Cert.ReferenceIdeal.τ Cert.ReferenceIdeal.sig (Elt Ideal)) : after ((Cert.ReferenceIdeal.Hand.opsCell (F := Ideal)).take 20) W (Proc.devRef .tc Cert.ReferenceIdeal.main_arg11) = W (Proc.devRef .tc Cert.ReferenceIdeal.main_arg11) := by
  simp only [Cert.ReferenceIdeal.Hand.opsCell, Cert.ReferenceIdeal.GenP.ops, List.take_succ_cons, List.take_zero, List.drop_succ_cons, List.drop_zero, List.cons_append, List.nil_append]
  after_results
theorem kB_keeps_main_v5 (W : Valuation Cert.KernelIdeal.τ Cert.KernelIdeal.sig (Elt Ideal)) : after (((Cert.KernelIdeal.Gen.hostOps0 (F := Ideal)).drop 8).drop 20 ++ Cert.KernelIdeal.Gen.hostOps0_1 (F := Ideal)) W (Proc.devRef .tc Cert.KernelIdeal.main_v5) = W (Proc.devRef .tc Cert.KernelIdeal.main_v5) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kB_keeps_main_v21 (W : Valuation Cert.KernelIdeal.τ Cert.KernelIdeal.sig (Elt Ideal)) : after (((Cert.KernelIdeal.Gen.hostOps0 (F := Ideal)).drop 8).drop 20 ++ Cert.KernelIdeal.Gen.hostOps0_1 (F := Ideal)) W (Proc.devRef .tc Cert.KernelIdeal.main_v21) = W (Proc.devRef .tc Cert.KernelIdeal.main_v21) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kB_keeps_main_arg8 (W : Valuation Cert.KernelIdeal.τ Cert.KernelIdeal.sig (Elt Ideal)) : after (((Cert.KernelIdeal.Gen.hostOps0 (F := Ideal)).drop 8).drop 20 ++ Cert.KernelIdeal.Gen.hostOps0_1 (F := Ideal)) W (Proc.devRef .tc Cert.KernelIdeal.main_arg8) = W (Proc.devRef .tc Cert.KernelIdeal.main_arg8) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kB_keeps_main_arg9 (W : Valuation Cert.KernelIdeal.τ Cert.KernelIdeal.sig (Elt Ideal)) : after (((Cert.KernelIdeal.Gen.hostOps0 (F := Ideal)).drop 8).drop 20 ++ Cert.KernelIdeal.Gen.hostOps0_1 (F := Ideal)) W (Proc.devRef .tc Cert.KernelIdeal.main_arg9) = W (Proc.devRef .tc Cert.KernelIdeal.main_arg9) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kB_keeps_main_arg10 (W : Valuation Cert.KernelIdeal.τ Cert.KernelIdeal.sig (Elt Ideal)) : after (((Cert.KernelIdeal.Gen.hostOps0 (F := Ideal)).drop 8).drop 20 ++ Cert.KernelIdeal.Gen.hostOps0_1 (F := Ideal)) W (Proc.devRef .tc Cert.KernelIdeal.main_arg10) = W (Proc.devRef .tc Cert.KernelIdeal.main_arg10) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem kB_keeps_main_arg11 (W : Valuation Cert.KernelIdeal.τ Cert.KernelIdeal.sig (Elt Ideal)) : after (((Cert.KernelIdeal.Gen.hostOps0 (F := Ideal)).drop 8).drop 20 ++ Cert.KernelIdeal.Gen.hostOps0_1 (F := Ideal)) W (Proc.devRef .tc Cert.KernelIdeal.main_arg11) = W (Proc.devRef .tc Cert.KernelIdeal.main_arg11) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem rB_keeps_main_v10 (W : Valuation Cert.ReferenceIdeal.τ Cert.ReferenceIdeal.sig (Elt Ideal)) : after (((Cert.ReferenceIdeal.Hand.opsCell (F := Ideal)).drop 20).take 9) W (Proc.devRef .tc Cert.ReferenceIdeal.main_v10) = W (Proc.devRef .tc Cert.ReferenceIdeal.main_v10) := by
  simp only [Cert.ReferenceIdeal.Hand.opsCell, Cert.ReferenceIdeal.GenP.ops, List.take_succ_cons, List.take_zero, List.drop_succ_cons, List.drop_zero, List.cons_append, List.nil_append]
  after_results
theorem rB_keeps_main_v26 (W : Valuation Cert.ReferenceIdeal.τ Cert.ReferenceIdeal.sig (Elt Ideal)) : after (((Cert.ReferenceIdeal.Hand.opsCell (F := Ideal)).drop 20).take 9) W (Proc.devRef .tc Cert.ReferenceIdeal.main_v26) = W (Proc.devRef .tc Cert.ReferenceIdeal.main_v26) := by
  simp only [Cert.ReferenceIdeal.Hand.opsCell, Cert.ReferenceIdeal.GenP.ops, List.take_succ_cons, List.take_zero, List.drop_succ_cons, List.drop_zero, List.cons_append, List.nil_append]
  after_results
theorem rB_keeps_main_arg8 (W : Valuation Cert.ReferenceIdeal.τ Cert.ReferenceIdeal.sig (Elt Ideal)) : after (((Cert.ReferenceIdeal.Hand.opsCell (F := Ideal)).drop 20).take 9) W (Proc.devRef .tc Cert.ReferenceIdeal.main_arg8) = W (Proc.devRef .tc Cert.ReferenceIdeal.main_arg8) := by
  simp only [Cert.ReferenceIdeal.Hand.opsCell, Cert.ReferenceIdeal.GenP.ops, List.take_succ_cons, List.take_zero, List.drop_succ_cons, List.drop_zero, List.cons_append, List.nil_append]
  after_results
theorem rB_keeps_main_arg9 (W : Valuation Cert.ReferenceIdeal.τ Cert.ReferenceIdeal.sig (Elt Ideal)) : after (((Cert.ReferenceIdeal.Hand.opsCell (F := Ideal)).drop 20).take 9) W (Proc.devRef .tc Cert.ReferenceIdeal.main_arg9) = W (Proc.devRef .tc Cert.ReferenceIdeal.main_arg9) := by
  simp only [Cert.ReferenceIdeal.Hand.opsCell, Cert.ReferenceIdeal.GenP.ops, List.take_succ_cons, List.take_zero, List.drop_succ_cons, List.drop_zero, List.cons_append, List.nil_append]
  after_results
theorem rB_keeps_main_arg10 (W : Valuation Cert.ReferenceIdeal.τ Cert.ReferenceIdeal.sig (Elt Ideal)) : after (((Cert.ReferenceIdeal.Hand.opsCell (F := Ideal)).drop 20).take 9) W (Proc.devRef .tc Cert.ReferenceIdeal.main_arg10) = W (Proc.devRef .tc Cert.ReferenceIdeal.main_arg10) := by
  simp only [Cert.ReferenceIdeal.Hand.opsCell, Cert.ReferenceIdeal.GenP.ops, List.take_succ_cons, List.take_zero, List.drop_succ_cons, List.drop_zero, List.cons_append, List.nil_append]
  after_results
theorem rB_keeps_main_arg11 (W : Valuation Cert.ReferenceIdeal.τ Cert.ReferenceIdeal.sig (Elt Ideal)) : after (((Cert.ReferenceIdeal.Hand.opsCell (F := Ideal)).drop 20).take 9) W (Proc.devRef .tc Cert.ReferenceIdeal.main_arg11) = W (Proc.devRef .tc Cert.ReferenceIdeal.main_arg11) := by
  simp only [Cert.ReferenceIdeal.Hand.opsCell, Cert.ReferenceIdeal.GenP.ops, List.take_succ_cons, List.take_zero, List.drop_succ_cons, List.drop_zero, List.cons_append, List.nil_append]
  after_results
theorem kC_keeps_main_v21 (W : Valuation Cert.KernelIdeal.τ Cert.KernelIdeal.sig (Elt Ideal)) : after (Cert.KernelIdeal.Gen.hostOps0_2 (F := Ideal)) W (Proc.devRef .tc Cert.KernelIdeal.main_v21) = W (Proc.devRef .tc Cert.KernelIdeal.main_v21) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append]
  after_results
theorem rC_keeps_main_v26 (W : Valuation Cert.ReferenceIdeal.τ Cert.ReferenceIdeal.sig (Elt Ideal)) : after (((Cert.ReferenceIdeal.Hand.opsCell (F := Ideal)).drop 20).drop 9) W (Proc.devRef .tc Cert.ReferenceIdeal.main_v26) = W (Proc.devRef .tc Cert.ReferenceIdeal.main_v26) := by
  simp only [Cert.ReferenceIdeal.Hand.opsCell, Cert.ReferenceIdeal.GenP.ops, List.take_succ_cons, List.take_zero, List.drop_succ_cons, List.drop_zero, List.cons_append, List.nil_append]
  after_results

end Cert.Bridge

end
-- ==== Proof.BridgeSegA.lean ====
/-
  The attention stretch, the same operations in both programs: from the same embedding row, hidden state and attention
  parameters it leaves the same attention weights and the same hidden row laid out [1, 1024].
-/
import proofs.«141799_j52441550684336_2_alg».proof.Proof.IdealSplit
import proofs.«141799_j52441550684336_2_alg».proof.Proof.RefHand

set_option maxRecDepth 16384

noncomputable section

namespace Cert.Bridge

open Idealize.ShloMosaic Idealize.ShloMosaic.TcCoe Idealize.ShloMosaic.ValueIdx Idealize.ShloMosaic.StableHlo
open Idealize.SL.Sem

variable (Wk : Valuation Cert.KernelIdeal.τ Cert.KernelIdeal.sig (Elt Ideal)) (Wr : Valuation Cert.ReferenceIdeal.τ Cert.ReferenceIdeal.sig (Elt Ideal))

set_option maxHeartbeats 8000000 in
/-- The attention: the same weights, and the same hidden row laid out [1, 1024]. -/
theorem segA (hE : (Wk (Proc.devRef .tc Cert.KernelIdeal.main_v4) : (⟨2, ![1, 1024]⟩ : Shape).Idx → EReal) = Wr (Proc.devRef .tc Cert.ReferenceIdeal.main_v9)) (h1 : (Wk (Proc.devRef .tc Cert.KernelIdeal.main_arg1) : (⟨3, ![1, 1, 1024]⟩ : Shape).Idx → EReal) = Wr (Proc.devRef .tc Cert.ReferenceIdeal.main_arg1))
    (h4 : (Wk (Proc.devRef .tc Cert.KernelIdeal.main_arg4) : (⟨2, ![64, 2048]⟩ : Shape).Idx → EReal) = Wr (Proc.devRef .tc Cert.ReferenceIdeal.main_arg4)) (h5 : (Wk (Proc.devRef .tc Cert.KernelIdeal.main_arg5) : (⟨1, ![64]⟩ : Shape).Idx → EReal) = Wr (Proc.devRef .tc Cert.ReferenceIdeal.main_arg5)) :
    ((after (((Cert.KernelIdeal.Gen.hostOps0 (F := Ideal)).drop 8).take 20) Wk (Proc.devRef .tc Cert.KernelIdeal.main_v21) : (⟨2, ![1, 64]⟩ : Shape).Idx → EReal) = after ((Cert.ReferenceIdeal.Hand.opsCell (F := Ideal)).take 20) Wr (Proc.devRef .tc Cert.ReferenceIdeal.main_v26))
      ∧ ((after (((Cert.KernelIdeal.Gen.hostOps0 (F := Ideal)).drop 8).take 20) Wk (Proc.devRef .tc Cert.KernelIdeal.main_v5) : (⟨2, ![1, 1024]⟩ : Shape).Idx → EReal) = after ((Cert.ReferenceIdeal.Hand.opsCell (F := Ideal)).take 20) Wr (Proc.devRef .tc Cert.ReferenceIdeal.main_v10)) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append, Cert.ReferenceIdeal.Hand.opsCell, Cert.ReferenceIdeal.GenP.ops, List.take_succ_cons, List.take_zero, List.drop_succ_cons, List.drop_zero, List.cons_append, List.nil_append]
  constructor
  · after_results
    rw [hE, h1, h4, h5]
    rfl
  · after_results
    rw [h1]
    rfl

end Cert.Bridge

end
-- ==== Proof.BridgeSegB.lean ====
/-
  The combination stretch and the rectifier, the same operations in both programs: from the same embedding row,
  attention weights and combination parameters, the same input to the cell.
-/
import proofs.«141799_j52441550684336_2_alg».proof.Proof.IdealSplit
import proofs.«141799_j52441550684336_2_alg».proof.Proof.RefHand

set_option maxRecDepth 16384

noncomputable section

namespace Cert.Bridge

open Idealize.ShloMosaic Idealize.ShloMosaic.TcCoe Idealize.ShloMosaic.ValueIdx Idealize.ShloMosaic.StableHlo
open Idealize.SL.Sem

variable (Wk : Valuation Cert.KernelIdeal.τ Cert.KernelIdeal.sig (Elt Ideal)) (Wr : Valuation Cert.ReferenceIdeal.τ Cert.ReferenceIdeal.sig (Elt Ideal))

set_option maxHeartbeats 8000000 in
/-- The combination and the rectifier: the same input to the cell. -/
theorem segB (hE : (Wk (Proc.devRef .tc Cert.KernelIdeal.main_v4) : (⟨2, ![1, 1024]⟩ : Shape).Idx → EReal) = Wr (Proc.devRef .tc Cert.ReferenceIdeal.main_v9)) (hA : (Wk (Proc.devRef .tc Cert.KernelIdeal.main_v21) : (⟨2, ![1, 64]⟩ : Shape).Idx → EReal) = Wr (Proc.devRef .tc Cert.ReferenceIdeal.main_v26))
    (h2 : (Wk (Proc.devRef .tc Cert.KernelIdeal.main_arg2) : (⟨2, ![64, 1024]⟩ : Shape).Idx → EReal) = Wr (Proc.devRef .tc Cert.ReferenceIdeal.main_arg2)) (h6 : (Wk (Proc.devRef .tc Cert.KernelIdeal.main_arg6) : (⟨2, ![1024, 2048]⟩ : Shape).Idx → EReal) = Wr (Proc.devRef .tc Cert.ReferenceIdeal.main_arg6)) (h7 : (Wk (Proc.devRef .tc Cert.KernelIdeal.main_arg7) : (⟨1, ![1024]⟩ : Shape).Idx → EReal) = Wr (Proc.devRef .tc Cert.ReferenceIdeal.main_arg7)) :
    ((after (((Cert.KernelIdeal.Gen.hostOps0 (F := Ideal)).drop 8).drop 20 ++ Cert.KernelIdeal.Gen.hostOps0_1 (F := Ideal)) Wk (Proc.devRef .tc Cert.KernelIdeal.main_v28) : (⟨2, ![1, 1024]⟩ : Shape).Idx → EReal) = after (((Cert.ReferenceIdeal.Hand.opsCell (F := Ideal)).drop 20).take 9) Wr (Proc.devRef .tc Cert.ReferenceIdeal.main_v33)) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append, Cert.ReferenceIdeal.Hand.opsCell, Cert.ReferenceIdeal.GenP.ops, List.take_succ_cons, List.take_zero, List.drop_succ_cons, List.drop_zero, List.cons_append, List.nil_append]
  after_results
  rw [hE, hA, h2, h6, h7]
  rfl

end Cert.Bridge

end
-- ==== Proof.BridgeSegC.lean ====
/-
  The GRU cell, the same operations in both programs: from the same input, the same hidden row and the same cell
  parameters, the same new hidden row.
-/
import proofs.«141799_j52441550684336_2_alg».proof.Proof.IdealSplit
import proofs.«141799_j52441550684336_2_alg».proof.Proof.RefHand

set_option maxRecDepth 16384

noncomputable section

namespace Cert.Bridge

open Idealize.ShloMosaic Idealize.ShloMosaic.TcCoe Idealize.ShloMosaic.ValueIdx Idealize.ShloMosaic.StableHlo
open Idealize.SL.Sem

variable (Wk : Valuation Cert.KernelIdeal.τ Cert.KernelIdeal.sig (Elt Ideal)) (Wr : Valuation Cert.ReferenceIdeal.τ Cert.ReferenceIdeal.sig (Elt Ideal))

set_option maxHeartbeats 16000000 in
/-- The GRU cell: the same new hidden row. -/
theorem segC (hx : (Wk (Proc.devRef .tc Cert.KernelIdeal.main_v28) : (⟨2, ![1, 1024]⟩ : Shape).Idx → EReal) = Wr (Proc.devRef .tc Cert.ReferenceIdeal.main_v33)) (hh : (Wk (Proc.devRef .tc Cert.KernelIdeal.main_v5) : (⟨2, ![1, 1024]⟩ : Shape).Idx → EReal) = Wr (Proc.devRef .tc Cert.ReferenceIdeal.main_v10))
    (h8 : (Wk (Proc.devRef .tc Cert.KernelIdeal.main_arg8) : (⟨2, ![3072, 1024]⟩ : Shape).Idx → EReal) = Wr (Proc.devRef .tc Cert.ReferenceIdeal.main_arg8)) (h9 : (Wk (Proc.devRef .tc Cert.KernelIdeal.main_arg9) : (⟨2, ![3072, 1024]⟩ : Shape).Idx → EReal) = Wr (Proc.devRef .tc Cert.ReferenceIdeal.main_arg9))
    (h10 : (Wk (Proc.devRef .tc Cert.KernelIdeal.main_arg10) : (⟨1, ![3072]⟩ : Shape).Idx → EReal) = Wr (Proc.devRef .tc Cert.ReferenceIdeal.main_arg10)) (h11 : (Wk (Proc.devRef .tc Cert.KernelIdeal.main_arg11) : (⟨1, ![3072]⟩ : Shape).Idx → EReal) = Wr (Proc.devRef .tc Cert.ReferenceIdeal.main_arg11)) :
    ((after (Cert.KernelIdeal.Gen.hostOps0_2 (F := Ideal)) Wk (Proc.devRef .tc Cert.KernelIdeal.main_v64) : (⟨2, ![1, 1024]⟩ : Shape).Idx → EReal) = after (((Cert.ReferenceIdeal.Hand.opsCell (F := Ideal)).drop 20).drop 9) Wr (Proc.devRef .tc Cert.ReferenceIdeal.main_v69)) := by
  simp only [Cert.KernelIdeal.Gen.hostOps0, Cert.KernelIdeal.Gen.hostOps0_1, Cert.KernelIdeal.Gen.hostOps0_2, List.take_succ_cons, List.take_zero, List.drop_succ_cons, List.drop_zero, List.cons_append, List.nil_append, Cert.ReferenceIdeal.Hand.opsCell, Cert.ReferenceIdeal.GenP.ops, List.take_succ_cons, List.take_zero, List.drop_succ_cons, List.drop_zero, List.cons_append, List.nil_append]
  after_results_simp
  rw [hx, hh, h8, h9, h10, h11]
  rfl

end Cert.Bridge

end
-- ==== Proof.BridgeCell.lean ====
/-
  The attention, the combination and the GRU cell of the two programs in turn: each stretch is the same operations in
  both programs, so from buffers that agree on what it reads it leaves buffers that agree on what it writes; chained,
  the same attention weights and the same new hidden row.
-/
import proofs.«141799_j52441550684336_2_alg».proof.Proof.BridgeKeeps
import proofs.«141799_j52441550684336_2_alg».proof.Proof.BridgeSegA
import proofs.«141799_j52441550684336_2_alg».proof.Proof.BridgeSegB
import proofs.«141799_j52441550684336_2_alg».proof.Proof.BridgeSegC

set_option maxRecDepth 16384

noncomputable section

namespace Cert.Bridge

open Idealize.ShloMosaic Idealize.ShloMosaic.TcCoe Idealize.ShloMosaic.ValueIdx Idealize.ShloMosaic.StableHlo
open Idealize.SL.Sem

variable (Wk : Valuation Cert.KernelIdeal.τ Cert.KernelIdeal.sig (Elt Ideal)) (Wr : Valuation Cert.ReferenceIdeal.τ Cert.ReferenceIdeal.sig (Elt Ideal))

/-! ## The stretches in turn -/

theorem opsCellK_split : (Cert.KernelIdeal.Around.opsCellK (F := Ideal)) = (((Cert.KernelIdeal.Gen.hostOps0 (F := Ideal)).drop 8).take 20) ++ ((((Cert.KernelIdeal.Gen.hostOps0 (F := Ideal)).drop 8).drop 20 ++ Cert.KernelIdeal.Gen.hostOps0_1 (F := Ideal)) ++ (Cert.KernelIdeal.Gen.hostOps0_2 (F := Ideal))) := by
  show (Cert.KernelIdeal.Gen.hostOps0 (F := Ideal)).drop 8 ++ (Cert.KernelIdeal.Gen.hostOps0_1 ++ Cert.KernelIdeal.Gen.hostOps0_2) = _
  rw [← List.append_assoc (List.take 20 _), ← List.append_assoc (List.take 20 _), List.take_append_drop, List.append_assoc]

theorem opsCell_split : (Cert.ReferenceIdeal.Hand.opsCell (F := Ideal)) = ((Cert.ReferenceIdeal.Hand.opsCell (F := Ideal)).take 20) ++ ((((Cert.ReferenceIdeal.Hand.opsCell (F := Ideal)).drop 20).take 9) ++ (((Cert.ReferenceIdeal.Hand.opsCell (F := Ideal)).drop 20).drop 9)) := by
  rw [List.take_append_drop, List.take_append_drop]

/-- From the same embedding row, hidden state and weights: the same attention weights and the same new hidden row. -/
theorem cell_eq (hE : (Wk (Proc.devRef .tc Cert.KernelIdeal.main_v4) : (⟨2, ![1, 1024]⟩ : Shape).Idx → EReal) = Wr (Proc.devRef .tc Cert.ReferenceIdeal.main_v9))
    (h1 : (Wk (Proc.devRef .tc Cert.KernelIdeal.main_arg1) : (⟨3, ![1, 1, 1024]⟩ : Shape).Idx → EReal) = Wr (Proc.devRef .tc Cert.ReferenceIdeal.main_arg1))
    (h2 : (Wk (Proc.devRef .tc Cert.KernelIdeal.main_arg2) : (⟨2, ![64, 1024]⟩ : Shape).Idx → EReal) = Wr (Proc.devRef .tc Cert.ReferenceIdeal.main_arg2))
    (h4 : (Wk (Proc.devRef .tc Cert.KernelIdeal.main_arg4) : (⟨2, ![64, 2048]⟩ : Shape).Idx → EReal) = Wr (Proc.devRef .tc Cert.ReferenceIdeal.main_arg4))
    (h5 : (Wk (Proc.devRef .tc Cert.KernelIdeal.main_arg5) : (⟨1, ![64]⟩ : Shape).Idx → EReal) = Wr (Proc.devRef .tc Cert.ReferenceIdeal.main_arg5))
    (h6 : (Wk (Proc.devRef .tc Cert.KernelIdeal.main_arg6) : (⟨2, ![1024, 2048]⟩ : Shape).Idx → EReal) = Wr (Proc.devRef .tc Cert.ReferenceIdeal.main_arg6))
    (h7 : (Wk (Proc.devRef .tc Cert.KernelIdeal.main_arg7) : (⟨1, ![1024]⟩ : Shape).Idx → EReal) = Wr (Proc.devRef .tc Cert.ReferenceIdeal.main_arg7))
    (h8 : (Wk (Proc.devRef .tc Cert.KernelIdeal.main_arg8) : (⟨2, ![3072, 1024]⟩ : Shape).Idx → EReal) = Wr (Proc.devRef .tc Cert.ReferenceIdeal.main_arg8))
    (h9 : (Wk (Proc.devRef .tc Cert.KernelIdeal.main_arg9) : (⟨2, ![3072, 1024]⟩ : Shape).Idx → EReal) = Wr (Proc.devRef .tc Cert.ReferenceIdeal.main_arg9))
    (h10 : (Wk (Proc.devRef .tc Cert.KernelIdeal.main_arg10) : (⟨1, ![3072]⟩ : Shape).Idx → EReal) = Wr (Proc.devRef .tc Cert.ReferenceIdeal.main_arg10))
    (h11 : (Wk (Proc.devRef .tc Cert.KernelIdeal.main_arg11) : (⟨1, ![3072]⟩ : Shape).Idx → EReal) = Wr (Proc.devRef .tc Cert.ReferenceIdeal.main_arg11)) :
    ((after Cert.KernelIdeal.Around.opsCellK Wk (Proc.devRef .tc Cert.KernelIdeal.main_v64) : (⟨2, ![1, 1024]⟩ : Shape).Idx → EReal)
        = after Cert.ReferenceIdeal.Hand.opsCell Wr (Proc.devRef .tc Cert.ReferenceIdeal.main_v69))
      ∧ ((after Cert.KernelIdeal.Around.opsCellK Wk (Proc.devRef .tc Cert.KernelIdeal.main_v21) : (⟨2, ![1, 64]⟩ : Shape).Idx → EReal)
        = after Cert.ReferenceIdeal.Hand.opsCell Wr (Proc.devRef .tc Cert.ReferenceIdeal.main_v26)) := by
  rw [opsCellK_split, opsCell_split, after_append, after_append, after_append, after_append]
  have a := segA Wk Wr hE h1 h4 h5
  have b := segB (after (((Cert.KernelIdeal.Gen.hostOps0 (F := Ideal)).drop 8).take 20) Wk) (after ((Cert.ReferenceIdeal.Hand.opsCell (F := Ideal)).take 20) Wr)
    (((kA_keeps_main_v4 Wk).trans hE).trans (rA_keeps_main_v9 Wr).symm) a.1
    (((kA_keeps_main_arg2 Wk).trans h2).trans (rA_keeps_main_arg2 Wr).symm)
    (((kA_keeps_main_arg6 Wk).trans h6).trans (rA_keeps_main_arg6 Wr).symm)
    (((kA_keeps_main_arg7 Wk).trans h7).trans (rA_keeps_main_arg7 Wr).symm)
  have c := segC (after (((Cert.KernelIdeal.Gen.hostOps0 (F := Ideal)).drop 8).drop 20 ++ Cert.KernelIdeal.Gen.hostOps0_1 (F := Ideal)) (after (((Cert.KernelIdeal.Gen.hostOps0 (F := Ideal)).drop 8).take 20) Wk)) (after (((Cert.ReferenceIdeal.Hand.opsCell (F := Ideal)).drop 20).take 9) (after ((Cert.ReferenceIdeal.Hand.opsCell (F := Ideal)).take 20) Wr)) b
    (((kB_keeps_main_v5 _).trans a.2).trans (rB_keeps_main_v10 _).symm)
    (((kB_keeps_main_arg8 _).trans (((kA_keeps_main_arg8 Wk).trans h8).trans (rA_keeps_main_arg8 Wr).symm)).trans (rB_keeps_main_arg8 _).symm)
    (((kB_keeps_main_arg9 _).trans (((kA_keeps_main_arg9 Wk).trans h9).trans (rA_keeps_main_arg9 Wr).symm)).trans (rB_keeps_main_arg9 _).symm)
    (((kB_keeps_main_arg10 _).trans (((kA_keeps_main_arg10 Wk).trans h10).trans (rA_keeps_main_arg10 Wr).symm)).trans (rB_keeps_main_arg10 _).symm)
    (((kB_keeps_main_arg11 _).trans (((kA_keeps_main_arg11 Wk).trans h11).trans (rA_keeps_main_arg11 Wr).symm)).trans (rB_keeps_main_arg11 _).symm)
  refine ⟨c, ?_⟩
  exact ((kC_keeps_main_v21 _).trans (((kB_keeps_main_v21 _).trans a.1).trans (rB_keeps_main_v26 _).symm)).trans (rC_keeps_main_v26 _).symm

end Cert.Bridge

end
-- ==== Proof.IdealValue.lean ====
/-
  The idealized kernel's run read at its three results and its fourteen arguments: the log-softmax row and the new
  hidden state at the later host lines' results from the region's exit, the attention weights as the region found them,
  the arguments unchanged.
-/
import proofs.«141799_j52441550684336_2_alg».proof.Proof.IdealFinal

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

theorem value_run : θ_run defs (onTc (τ := τ) (main (F := Ideal))) ⟨m, fun _ => 0, ρ⟩ (fun r => ∀ c : Dev nD,
      r.2.mem ((c.tc : Thread nD τ).loc main_v67) = Pipeline.afterTail₀ cfgs (dats m) 0 (V0 m) [hostOps1, hostOps1_1] c main_v67
      ∧ r.2.mem ((c.tc : Thread nD τ).loc main_v68) = Pipeline.afterTail₀ cfgs (dats m) 0 (V0 m) [hostOps1, hostOps1_1] c main_v68
      ∧ r.2.mem ((c.tc : Thread nD τ).loc main_v21) = V m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).2 main_v67 (Pipeline.mem_restRefs_of main_v67 (by decide) (by decide)),
      (h c).2 main_v68 (Pipeline.mem_restRefs_of main_v68 (by decide) (by decide)),
      ((h c).2 main_v21 (Pipeline.mem_restRefs_of main_v21 (by decide) (by decide))).trans (tail_v21 m c),
      ((h c).2 main_arg0 (Pipeline.mem_restRefs_of main_arg0 (by decide) (by decide))).trans ((tail_main_arg0 m (dats m) c).trans (V_main_arg0 m c)),
      ((h c).2 main_arg1 (Pipeline.mem_restRefs_of main_arg1 (by decide) (by decide))).trans ((tail_main_arg1 m (dats m) c).trans (V_main_arg1 m c)),
      ((h c).2 main_arg2 (Pipeline.mem_restRefs_of main_arg2 (by decide) (by decide))).trans ((tail_main_arg2 m (dats m) c).trans (V_main_arg2 m c)),
      ((h c).2 main_arg3 (Pipeline.mem_restRefs_of main_arg3 (by decide) (by decide))).trans ((tail_main_arg3 m (dats m) c).trans (V_main_arg3 m c)),
      ((h c).2 main_arg4 (Pipeline.mem_restRefs_of main_arg4 (by decide) (by decide))).trans ((tail_main_arg4 m (dats m) c).trans (V_main_arg4 m c)),
      ((h c).2 main_arg5 (Pipeline.mem_restRefs_of main_arg5 (by decide) (by decide))).trans ((tail_main_arg5 m (dats m) c).trans (V_main_arg5 m c)),
      ((h c).2 main_arg6 (Pipeline.mem_restRefs_of main_arg6 (by decide) (by decide))).trans ((tail_main_arg6 m (dats m) c).trans (V_main_arg6 m c)),
      ((h c).2 main_arg7 (Pipeline.mem_restRefs_of main_arg7 (by decide) (by decide))).trans ((tail_main_arg7 m (dats m) c).trans (V_main_arg7 m c)),
      ((h c).2 main_arg8 (Pipeline.mem_restRefs_of main_arg8 (by decide) (by decide))).trans ((tail_main_arg8 m (dats m) c).trans (V_main_arg8 m c)),
      ((h c).2 main_arg9 (Pipeline.mem_restRefs_of main_arg9 (by decide) (by decide))).trans ((tail_main_arg9 m (dats m) c).trans (V_main_arg9 m c)),
      ((h c).2 main_arg10 (Pipeline.mem_restRefs_of main_arg10 (by decide) (by decide))).trans ((tail_main_arg10 m (dats m) c).trans (V_main_arg10 m c)),
      ((h c).2 main_arg11 (Pipeline.mem_restRefs_of main_arg11 (by decide) (by decide))).trans ((tail_main_arg11 m (dats m) c).trans (V_main_arg11 m c)),
      ((h c).1 1).trans (((dats m 0 c).arrAt_in 1 rfl _).trans ((A_eq m c 1).trans (V_main_arg12 m c))),
      ((h c).2 main_arg13 (Pipeline.mem_restRefs_of main_arg13 (by decide) (by decide))).trans ((tail_main_arg13 m (dats m) c).trans (V_main_arg13 m c))⟩) (run_main m ρ)

/-- THE FRAME of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Around

end
-- ==== Proof.RefKeeps.lean ====
/-
  Which buffers the reference's four stretches of operations leave alone: the embedding row's stretch writes no argument
  array; the cell's stretch writes neither the output weights nor the output bias; the output projection and the
  log-softmax write no attention weights.
-/
import proofs.«141799_j52441550684336_2_alg».proof.Proof.RefHand

set_option maxRecDepth 16384

noncomputable section

namespace Cert.ReferenceIdeal.Hand

open Cert.ReferenceIdeal Cert.ReferenceIdeal.Gen Cert.ReferenceIdeal.GenP Idealize.ShloMosaic Idealize.ShloMosaic.TcCoe Idealize.SL.Sem Idealize.ShloMosaic.StableHlo

variable {F : FTy → Type} [FloatOps F]

theorem emb_keeps_main_arg1 (W : Valuation τ sig (Elt F)) : after (opsEmb (F := F)) W (Proc.devRef .tc main_arg1) = W (Proc.devRef .tc main_arg1) := by
  simp only [opsEmb, ops, List.take_succ_cons, List.take_zero, List.drop_succ_cons, List.drop_zero]
  after_results

theorem emb_keeps_main_arg2 (W : Valuation τ sig (Elt F)) : after (opsEmb (F := F)) W (Proc.devRef .tc main_arg2) = W (Proc.devRef .tc main_arg2) := by
  simp only [opsEmb, ops, List.take_succ_cons, List.take_zero, List.drop_succ_cons, List.drop_zero]
  after_results

theorem emb_keeps_main_arg4 (W : Valuation τ sig (Elt F)) : after (opsEmb (F := F)) W (Proc.devRef .tc main_arg4) = W (Proc.devRef .tc main_arg4) := by
  simp only [opsEmb, ops, List.take_succ_cons, List.take_zero, List.drop_succ_cons, List.drop_zero]
  after_results

theorem emb_keeps_main_arg5 (W : Valuation τ sig (Elt F)) : after (opsEmb (F := F)) W (Proc.devRef .tc main_arg5) = W (Proc.devRef .tc main_arg5) := by
  simp only [opsEmb, ops, List.take_succ_cons, List.take_zero, List.drop_succ_cons, List.drop_zero]
  after_results

theorem emb_keeps_main_arg6 (W : Valuation τ sig (Elt F)) : after (opsEmb (F := F)) W (Proc.devRef .tc main_arg6) = W (Proc.devRef .tc main_arg6) := by
  simp only [opsEmb, ops, List.take_succ_cons, List.take_zero, List.drop_succ_cons, List.drop_zero]
  after_results

theorem emb_keeps_main_arg7 (W : Valuation τ sig (Elt F)) : after (opsEmb (F := F)) W (Proc.devRef .tc main_arg7) = W (Proc.devRef .tc main_arg7) := by
  simp only [opsEmb, ops, List.take_succ_cons, List.take_zero, List.drop_succ_cons, List.drop_zero]
  after_results

theorem emb_keeps_main_arg8 (W : Valuation τ sig (Elt F)) : after (opsEmb (F := F)) W (Proc.devRef .tc main_arg8) = W (Proc.devRef .tc main_arg8) := by
  simp only [opsEmb, ops, List.take_succ_cons, List.take_zero, List.drop_succ_cons, List.drop_zero]
  after_results

theorem emb_keeps_main_arg9 (W : Valuation τ sig (Elt F)) : after (opsEmb (F := F)) W (Proc.devRef .tc main_arg9) = W (Proc.devRef .tc main_arg9) := by
  simp only [opsEmb, ops, List.take_succ_cons, List.take_zero, List.drop_succ_cons, List.drop_zero]
  after_results

theorem emb_keeps_main_arg10 (W : Valuation τ sig (Elt F)) : after (opsEmb (F := F)) W (Proc.devRef .tc main_arg10) = W (Proc.devRef .tc main_arg10) := by
  simp only [opsEmb, ops, List.take_succ_cons, List.take_zero, List.drop_succ_cons, List.drop_zero]
  after_results

theorem emb_keeps_main_arg11 (W : Valuation τ sig (Elt F)) : after (opsEmb (F := F)) W (Proc.devRef .tc main_arg11) = W (Proc.devRef .tc main_arg11) := by
  simp only [opsEmb, ops, List.take_succ_cons, List.take_zero, List.drop_succ_cons, List.drop_zero]
  after_results

theorem emb_keeps_main_arg12 (W : Valuation τ sig (Elt F)) : after (opsEmb (F := F)) W (Proc.devRef .tc main_arg12) = W (Proc.devRef .tc main_arg12) := by
  simp only [opsEmb, ops, List.take_succ_cons, List.take_zero, List.drop_succ_cons, List.drop_zero]
  after_results

theorem emb_keeps_main_arg13 (W : Valuation τ sig (Elt F)) : after (opsEmb (F := F)) W (Proc.devRef .tc main_arg13) = W (Proc.devRef .tc main_arg13) := by
  simp only [opsEmb, ops, List.take_succ_cons, List.take_zero, List.drop_succ_cons, List.drop_zero]
  after_results

theorem cell_keeps_main_arg12 (W : Valuation τ sig (Elt F)) : after (opsCell (F := F)) W (Proc.devRef .tc main_arg12) = W (Proc.devRef .tc main_arg12) :=
  after_of_forall_not_mem (b := Proc.devRef .tc main_arg12) _ _ (List.forall_iff_forall_mem.mp (by
    simp only [opsCell, ops, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem cell_keeps_main_arg13 (W : Valuation τ sig (Elt F)) : after (opsCell (F := F)) W (Proc.devRef .tc main_arg13) = W (Proc.devRef .tc main_arg13) :=
  after_of_forall_not_mem (b := Proc.devRef .tc main_arg13) _ _ (List.forall_iff_forall_mem.mp (by
    simp only [opsCell, ops, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

theorem logits_keeps_v26 (W : Valuation τ sig (Elt F)) : after (opsLogits (F := F)) W (Proc.devRef .tc main_v26) = W (Proc.devRef .tc main_v26) := by
  simp only [opsLogits, ops, List.take_succ_cons, List.take_zero, List.drop_succ_cons, List.drop_zero]
  after_results

theorem tail_keeps_v26 (W : Valuation τ sig (Elt F)) : after (opsTail (F := F)) W (Proc.devRef .tc main_v26) = W (Proc.devRef .tc main_v26) :=
  after_of_forall_not_mem (b := Proc.devRef .tc main_v26) _ _ (List.forall_iff_forall_mem.mp (by
    simp only [opsTail, ops, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact devRef_ne_of_ne (by decide)))

end Cert.ReferenceIdeal.Hand

end
-- ==== Proof.Alg.lean ====
/-
  The two idealized programs end with equal results. From memories that agree on the arguments: the embedding rows are
  one row, so the earlier host lines leave the same attention weights and the same new hidden row in both programs; the
  kernel's region leaves the logits row in its output array, which is what the reference's output projection computes;
  and the later lines, the same in both, turn equal logits and equal hidden rows into equal log-probabilities and equal
  new hidden states.
-/
import proofs.«141799_j52441550684336_2_alg».proof.Proof.Bridge
import proofs.«141799_j52441550684336_2_alg».proof.Proof.BridgeEmb
import proofs.«141799_j52441550684336_2_alg».proof.Proof.BridgeCell
import proofs.«141799_j52441550684336_2_alg».proof.Proof.IdealValue
import proofs.«141799_j52441550684336_2_alg».proof.Proof.RefKeeps

set_option maxRecDepth 16384

noncomputable section

namespace Cert.Proof.Alg

open Idealize.ShloMosaic Idealize.ShloMosaic.TcCoe Idealize.ShloMosaic.ValueIdx Idealize.ShloMosaic.StableHlo
open Idealize.SL.Sem
open Idealize.ShloMosaic.Pipeline (Dat)

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- The kernel's buffers at launch on core `c`, -/
abbrev Lk (c : Dev Cert.KernelIdeal.nD) : Valuation Cert.KernelIdeal.τ Cert.KernelIdeal.sig (Elt Ideal) := fun b => m (c, b)
/-- and the reference's. -/
abbrev Lr (c : Dev Cert.ReferenceIdeal.nD) : Valuation Cert.ReferenceIdeal.τ Cert.ReferenceIdeal.sig (Elt Ideal) := launchContents m' c

/-- The reference's buffers after the embedding row's stretch, after the cell's, after the output projection's. -/
abbrev W1r (c : Dev Cert.ReferenceIdeal.nD) : Valuation Cert.ReferenceIdeal.τ Cert.ReferenceIdeal.sig (Elt Ideal) := after Cert.ReferenceIdeal.Hand.opsEmb (Lr m' c)
abbrev W2r (c : Dev Cert.ReferenceIdeal.nD) : Valuation Cert.ReferenceIdeal.τ Cert.ReferenceIdeal.sig (Elt Ideal) := after Cert.ReferenceIdeal.Hand.opsCell (W1r m' c)
abbrev W3r (c : Dev Cert.ReferenceIdeal.nD) : Valuation Cert.ReferenceIdeal.τ Cert.ReferenceIdeal.sig (Elt Ideal) := after Cert.ReferenceIdeal.Hand.opsLogits (W2r m' c)
/-- The kernel's after the embedding row's stretch. -/
abbrev W1k (c : Dev Cert.KernelIdeal.nD) : Valuation Cert.KernelIdeal.τ Cert.KernelIdeal.sig (Elt Ideal) := after Cert.KernelIdeal.Around.opsEmbK (Lk m c)

/-- The memories agree on the arguments, on core `c`. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

variable {m m'}

/-- The kernel's buffers when its region is entered. -/
theorem V_eq (c : Dev Cert.KernelIdeal.nD) (b : Ref Cert.KernelIdeal.sig .tc) :
    Cert.KernelIdeal.Around.V m c b = after Cert.KernelIdeal.Around.opsCellK (W1k m c) (Proc.devRef .tc b) :=
  congrFun (Cert.KernelIdeal.Around.V0_split m c) (Proc.devRef .tc b)

/-- THE EARLIER LINES: the same new hidden row and the same attention weights. -/
theorem cell (c : Dev Cert.KernelIdeal.nD) (hag : Agree m m' c) :
    ((Cert.KernelIdeal.Around.V m c Cert.KernelIdeal.main_v64 : (⟨2, ![1, 1024]⟩ : Shape).Idx → EReal) = W2r m' c (Proc.devRef .tc Cert.ReferenceIdeal.main_v69))
      ∧ ((Cert.KernelIdeal.Around.V m c Cert.KernelIdeal.main_v21 : (⟨2, ![1, 64]⟩ : Shape).Idx → EReal) = W2r m' c (Proc.devRef .tc Cert.ReferenceIdeal.main_v26)) := by
  have hE := Cert.Bridge.emb_eq (Lk m c) (Lr m' c) (hag.1).symm (hag.2.2.2.1).symm
  have hc := Cert.Bridge.cell_eq (W1k m c) (W1r m' c) hE
    (((Cert.KernelIdeal.Around.embK_keeps_main_arg1 (Lk m c)).trans (hag.2.1).symm).trans (Cert.ReferenceIdeal.Hand.emb_keeps_main_arg1 (Lr m' c)).symm)
    (((Cert.KernelIdeal.Around.embK_keeps_main_arg2 (Lk m c)).trans (hag.2.2.1).symm).trans (Cert.ReferenceIdeal.Hand.emb_keeps_main_arg2 (Lr m' c)).symm)
    (((Cert.KernelIdeal.Around.embK_keeps_main_arg4 (Lk m c)).trans (hag.2.2.2.2.1).symm).trans (Cert.ReferenceIdeal.Hand.emb_keeps_main_arg4 (Lr m' c)).symm)
    (((Cert.KernelIdeal.Around.embK_keeps_main_arg5 (Lk m c)).trans (hag.2.2.2.2.2.1).symm).trans (Cert.ReferenceIdeal.Hand.emb_keeps_main_arg5 (Lr m' c)).symm)
    (((Cert.KernelIdeal.Around.embK_keeps_main_arg6 (Lk m c)).trans (hag.2.2.2.2.2.2.1).symm).trans (Cert.ReferenceIdeal.Hand.emb_keeps_main_arg6 (Lr m' c)).symm)
    (((Cert.KernelIdeal.Around.embK_keeps_main_arg7 (Lk m c)).trans (hag.2.2.2.2.2.2.2.1).symm).trans (Cert.ReferenceIdeal.Hand.emb_keeps_main_arg7 (Lr m' c)).symm)
    (((Cert.KernelIdeal.Around.embK_keeps_main_arg8 (Lk m c)).trans (hag.2.2.2.2.2.2.2.2.1).symm).trans (Cert.ReferenceIdeal.Hand.emb_keeps_main_arg8 (Lr m' c)).symm)
    (((Cert.KernelIdeal.Around.embK_keeps_main_arg9 (Lk m c)).trans (hag.2.2.2.2.2.2.2.2.2.1).symm).trans (Cert.ReferenceIdeal.Hand.emb_keeps_main_arg9 (Lr m' c)).symm)
    (((Cert.KernelIdeal.Around.embK_keeps_main_arg10 (Lk m c)).trans (hag.2.2.2.2.2.2.2.2.2.2.1).symm).trans (Cert.ReferenceIdeal.Hand.emb_keeps_main_arg10 (Lr m' c)).symm)
    (((Cert.KernelIdeal.Around.embK_keeps_main_arg11 (Lk m c)).trans (hag.2.2.2.2.2.2.2.2.2.2.2.1).symm).trans (Cert.ReferenceIdeal.Hand.emb_keeps_main_arg11 (Lr m' c)).symm)
  exact ⟨(V_eq c Cert.KernelIdeal.main_v64).trans hc.1, (V_eq c Cert.KernelIdeal.main_v21).trans hc.2⟩

/-- The weights and the bias of the output projection reach it unchanged in the reference. -/
theorem W2r_arg12 (c : Dev Cert.KernelIdeal.nD) (hag : Agree m m' c) :
    W2r m' c (Proc.devRef .tc Cert.ReferenceIdeal.main_arg12) = m ((c.tc : Thread Cert.KernelIdeal.nD Cert.KernelIdeal.τ).loc Cert.KernelIdeal.main_arg12) :=
  ((Cert.ReferenceIdeal.Hand.cell_keeps_main_arg12 _).trans (Cert.ReferenceIdeal.Hand.emb_keeps_main_arg12 _)).trans (hag.2.2.2.2.2.2.2.2.2.2.2.2.1)
theorem W2r_arg13 (c : Dev Cert.KernelIdeal.nD) (hag : Agree m m' c) :
    W2r m' c (Proc.devRef .tc Cert.ReferenceIdeal.main_arg13) = m ((c.tc : Thread Cert.KernelIdeal.nD Cert.KernelIdeal.τ).loc Cert.KernelIdeal.main_arg13) :=
  ((Cert.ReferenceIdeal.Hand.cell_keeps_main_arg13 _).trans (Cert.ReferenceIdeal.Hand.emb_keeps_main_arg13 _)).trans (hag.2.2.2.2.2.2.2.2.2.2.2.2.2)

/-- THE LOGITS: the kernel's output array after its run is the reference's output projection. -/
theorem logits_eq (c : Dev Cert.KernelIdeal.nD) (hag : Agree m m' c) :
    (Cert.KernelIdeal.Around.WA m c (Proc.devRef .tc Cert.KernelIdeal.main_v66) : (⟨2, ![1, 50257]⟩ : Shape).Idx → EReal) = W3r m' c (Proc.devRef .tc Cert.ReferenceIdeal.main_v73) := by
  rw [Cert.KernelIdeal.Around.WA_v66, show W3r m' c (Proc.devRef .tc Cert.ReferenceIdeal.main_v73) = _ from Cert.ReferenceIdeal.Hand.logits_ref (W2r m' c)]
  unfold Cert.KernelIdeal.Around.logitsK
  rw [← (cell c hag).1, W2r_arg12 c hag, W2r_arg13 c hag, Cert.KernelIdeal.Around.V_main_arg12]
  refine congrArg (Cert.OutProj.logits _ _) (funext fun q => ?_)
  exact (Cert.KernelIdeal.Around.V_v65 m c (q 0)).trans (congrArg _ (eq_ix1 q).symm)

/-- The hidden row at the region's exit is the reference's when its later lines start. -/
theorem hidden_eq (c : Dev Cert.KernelIdeal.nD) (hag : Agree m m' c) :
    (Cert.KernelIdeal.Around.WA m c (Proc.devRef .tc Cert.KernelIdeal.main_v64) : (⟨2, ![1, 1024]⟩ : Shape).Idx → EReal) = W3r m' c (Proc.devRef .tc Cert.ReferenceIdeal.main_v69) :=
  ((Cert.KernelIdeal.Around.WA_v64 m c).trans (cell c hag).1).trans (Cert.ReferenceIdeal.Hand.logits_keeps_v69 _).symm

/-- THE RESULTS of the reference are the kernel's. -/
theorem results (c : Dev Cert.KernelIdeal.nD) (hag : Agree m m' c) :
    (after Cert.ReferenceIdeal.GenP.ops (Lr m' c) (Proc.devRef .tc Cert.ReferenceIdeal.main_v74)
        = (Pipeline.afterTail₀ Cert.KernelIdeal.cfgs (Cert.KernelIdeal.Around.dats m) 0 (Cert.KernelIdeal.Around.V0 m) [Cert.KernelIdeal.Gen.hostOps1, Cert.KernelIdeal.Gen.hostOps1_1] c Cert.KernelIdeal.main_v67 : (⟨2, ![1, 50257]⟩ : Shape).Idx → EReal))
      ∧ (after Cert.ReferenceIdeal.GenP.ops (Lr m' c) (Proc.devRef .tc Cert.ReferenceIdeal.main_v75)
        = (Pipeline.afterTail₀ Cert.KernelIdeal.cfgs (Cert.KernelIdeal.Around.dats m) 0 (Cert.KernelIdeal.Around.V0 m) [Cert.KernelIdeal.Gen.hostOps1, Cert.KernelIdeal.Gen.hostOps1_1] c Cert.KernelIdeal.main_v68 : (⟨3, ![1, 1, 1024]⟩ : Shape).Idx → EReal))
      ∧ (after Cert.ReferenceIdeal.GenP.ops (Lr m' c) (Proc.devRef .tc Cert.ReferenceIdeal.main_v26)
        = (Cert.KernelIdeal.Around.V m c Cert.KernelIdeal.main_v21 : (⟨2, ![1, 64]⟩ : Shape).Idx → EReal)) := by
  have ht := Cert.Bridge.tail_eq (Cert.KernelIdeal.Around.WA m c) (W3r m' c) (logits_eq c hag) (hidden_eq c hag)
  rw [Cert.ReferenceIdeal.Hand.after_split, Cert.KernelIdeal.Around.tail_eq, Cert.KernelIdeal.Around.tail_eq]
  refine ⟨ht.1.symm, ht.2.symm, ?_⟩
  exact ((Cert.ReferenceIdeal.Hand.tail_keeps_v26 _).trans (Cert.ReferenceIdeal.Hand.logits_keeps_v26 _)).trans (cell c hag).2.symm

end Cert.Proof.Alg

end
-- ==== Proof.lean ====
/-
  A single-step attention decoder: an embedding row, additive attention over the encoder outputs, a GRU cell, and the
  projection of the new hidden row onto a vocabulary of 50257 followed by a log-softmax. The kernel computes everything
  but the projection on the host, as the reference does, and the projection `h · Wᵀ + b` in a Pallas region, thirteen
  blocks of 4096 vocabulary rows at a time, the last block cut at the vocabulary's end (its columns past the end are
  masked to zero and never written back).

  The claims. Each of the three programs runs to the end, faults nowhere and leaves its fourteen argument arrays
  unchanged: the word-level kernel and the idealized kernel by the launch of their one region between the host lines
  before and after it (the word-level one without naming what the body computes), the reference by the fold of its host
  operations. The ideal pass rewrote nothing, so the idealization claim is trivial. And over the extended reals the
  idealized kernel and the idealized reference end with equal results: a matrix product into a zero accumulator is the
  host's product, column by column the sum over the hidden coordinates; the blocks' columns inside the vocabulary
  depend only on rows of the weights and columns of the bias inside their arrays; and the rest of the two programs is
  the same operations on equal operands. No finiteness of the inputs is used: only sums and products in the same order.
-/
import proofs.«141799_j52441550684336_2_alg».proof.Defs
import proofs.«141799_j52441550684336_2_alg».proof.Proof.Gen.Kernel
import proofs.«141799_j52441550684336_2_alg».proof.Proof.Gen.KernelIdeal
import proofs.«141799_j52441550684336_2_alg».proof.Proof.Gen.ReferenceIdeal
import proofs.«141799_j52441550684336_2_alg».proof.Proof.Gen.Pre_finite_inputs
import proofs.«141799_j52441550684336_2_alg».proof.Proof.KernelFrame
import proofs.«141799_j52441550684336_2_alg».proof.Proof.Alg
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Around.frame (F := Bits) m ρ

theorem frame_ki : @Cert.frame_KernelIdeal Cert.KernelIdeal.Gen.facts Cert.Pre_finite_inputs.Gen.facts :=
  fun m ρ _ => Cert.KernelIdeal.Around.frame m ρ

theorem frame_ri : @Cert.frame_ReferenceIdeal Cert.ReferenceIdeal.Gen.facts Cert.Pre_finite_inputs.Gen.facts :=
  fun m ρ _ => Cert.ReferenceIdeal.Hand.frame (F := Ideal) m ρ

/-- The two idealized programs, from memories that agree on the arguments, both run and end with equal results. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Pipeline.afterTail₀ Cert.KernelIdeal.cfgs (Cert.KernelIdeal.Around.dats m) 0 (Cert.KernelIdeal.Around.V0 m) [Cert.KernelIdeal.Gen.hostOps1, Cert.KernelIdeal.Gen.hostOps1_1] c Cert.KernelIdeal.main_v67,
    fun c => Pipeline.afterTail₀ Cert.KernelIdeal.cfgs (Cert.KernelIdeal.Around.dats m) 0 (Cert.KernelIdeal.Around.V0 m) [Cert.KernelIdeal.Gen.hostOps1, Cert.KernelIdeal.Gen.hostOps1_1] c Cert.KernelIdeal.main_v68,
    fun c => Cert.KernelIdeal.Around.V m c Cert.KernelIdeal.main_v21,
    Cert.KernelIdeal.Around.value_run m ρ, ?_⟩
  refine (θ_run Cert.ReferenceIdeal.defs _ _).mono (fun r h c => ?_) (Cert.ReferenceIdeal.GenP.run (F := Ideal) m' ρ')
  have hr := Cert.Proof.Alg.results (m := m) (m' := m') c (hagree c)
  exact ⟨(h c Cert.ReferenceIdeal.main_v74).trans hr.1, (h c Cert.ReferenceIdeal.main_v75).trans hr.2.1, (h c Cert.ReferenceIdeal.main_v26).trans hr.2.2,
    (h c Cert.ReferenceIdeal.main_arg0).trans (Cert.ReferenceIdeal.Hand.ops_keeps_main_arg0 _),
    (h c Cert.ReferenceIdeal.main_arg1).trans (Cert.ReferenceIdeal.Hand.ops_keeps_main_arg1 _),
    (h c Cert.ReferenceIdeal.main_arg2).trans (Cert.ReferenceIdeal.Hand.ops_keeps_main_arg2 _),
    (h c Cert.ReferenceIdeal.main_arg3).trans (Cert.ReferenceIdeal.Hand.ops_keeps_main_arg3 _),
    (h c Cert.ReferenceIdeal.main_arg4).trans (Cert.ReferenceIdeal.Hand.ops_keeps_main_arg4 _),
    (h c Cert.ReferenceIdeal.main_arg5).trans (Cert.ReferenceIdeal.Hand.ops_keeps_main_arg5 _),
    (h c Cert.ReferenceIdeal.main_arg6).trans (Cert.ReferenceIdeal.Hand.ops_keeps_main_arg6 _),
    (h c Cert.ReferenceIdeal.main_arg7).trans (Cert.ReferenceIdeal.Hand.ops_keeps_main_arg7 _),
    (h c Cert.ReferenceIdeal.main_arg8).trans (Cert.ReferenceIdeal.Hand.ops_keeps_main_arg8 _),
    (h c Cert.ReferenceIdeal.main_arg9).trans (Cert.ReferenceIdeal.Hand.ops_keeps_main_arg9 _),
    (h c Cert.ReferenceIdeal.main_arg10).trans (Cert.ReferenceIdeal.Hand.ops_keeps_main_arg10 _),
    (h c Cert.ReferenceIdeal.main_arg11).trans (Cert.ReferenceIdeal.Hand.ops_keeps_main_arg11 _),
    (h c Cert.ReferenceIdeal.main_arg12).trans (Cert.ReferenceIdeal.Hand.ops_keeps_main_arg12 _),
    (h c Cert.ReferenceIdeal.main_arg13).trans (Cert.ReferenceIdeal.Hand.ops_keeps_main_arg13 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
